-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x32x32x1152 : Shape := ⟨5, ![2, 8, 32, 32, 1152]⟩
abbrev S3456x1152 : Shape := ⟨2, ![3456, 1152]⟩
abbrev S72 : Shape := ⟨1, ![72]⟩
abbrev S1152x1152 : Shape := ⟨2, ![1152, 1152]⟩
abbrev S1152 : Shape := ⟨1, ![1152]⟩
abbrev S_ : Shape := ⟨0, ![]⟩

class Facts : Prop where
  bcast_S_S2x8x32x32x1152 : S_.BroadcastsInDim S2x8x32x32x1152 (![] : Fin 0 → Fin S2x8x32x32x1152.rank)
  reducesTo_S2x8x32x32x1152_S_d0_1_2_3_4 : S2x8x32x32x1152.ReducesTo [0, 1, 2, 3, 4] S_
  h_S_ : 0 < S_.numel
  bcast_S_S3456x1152 : S_.BroadcastsInDim S3456x1152 (![] : Fin 0 → Fin S3456x1152.rank)
  reducesTo_S3456x1152_S_d0_1 : S3456x1152.ReducesTo [0, 1] S_
  bcast_S_S72 : S_.BroadcastsInDim S72 (![] : Fin 0 → Fin S72.rank)
  reducesTo_S72_S_d0 : S72.ReducesTo [0] S_
  bcast_S_S1152x1152 : S_.BroadcastsInDim S1152x1152 (![] : Fin 0 → Fin S1152x1152.rank)
  reducesTo_S1152x1152_S_d0_1 : S1152x1152.ReducesTo [0, 1] S_
  bcast_S_S1152 : S_.BroadcastsInDim S1152 (![] : Fin 0 → Fin S1152.rank)
  reducesTo_S1152_S_d0 : S1152.ReducesTo [0] S_

variable [Facts]

def fn_part1 {F : FTy → Type} [FloatOps F] (main_arg4 : FVec F S1152x1152 .f32) (main_arg5 : FVec F S1152 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S1152x1152 .f32 := Host.absf main_arg4
  let main_cst_6 : FVec F S_ .f32 := constant S_ .f32 0x7F800000#32
  let main_v20 : FVec F S1152x1152 .f32 := broadcastInDim S1152x1152 ![] bcast_S_S1152x1152 main_cst_6
  let main_v21 : IVec S1152x1152 1 := cmpf .olt main_v19 main_v20
  let main_c_7 : IVec S_ 1 := constantI S_ 1 1#1
  let main_v22 : IVec S_ 1 := (fun x v => Host.reduce IntOp.andi x v reducesTo_S1152x1152_S_d0_1 h_S_) main_v21 main_c_7
  let main_v23 : IVec S_ 1 := andi main_v18 main_v22
  let main_v24 : FVec F S1152 .f32 := Host.absf main_arg5
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  main_v28

def fn {F : FTy → Type} [FloatOps F] (main_arg0 : FVec F S2x8x32x32x1152 .f32) (main_arg1 : FVec F S3456x1152 .f32) (main_arg2 : FVec F S72 .f32) (main_arg3 : FVec F S72 .f32) (main_arg4 : FVec F S1152x1152 .f32) (main_arg5 : FVec F S1152 .f32) : IVec S_ 1 :=
  let main_v0 : FVec F S2x8x32x32x1152 .f32 := Host.absf main_arg0
  let main_cst : FVec F S_ .f32 := constant S_ .f32 0x7F800000#32
  let main_v1 : FVec F S2x8x32x32x1152 .f32 := broadcastInDim S2x8x32x32x1152 ![] bcast_S_S2x8x32x32x1152 main_cst
  let main_v2 : IVec S2x8x32x32x1152 1 := cmpf .olt main_v0 main_v1
  let main_c : IVec S_ 1 := constantI S_ 1 1#1
  let main_v3 : IVec S_ 1 := (fun x v => Host.reduce IntOp.andi x v reducesTo_S2x8x32x32x1152_S_d0_1_2_3_4 h_S_) main_v2 main_c
  let main_v4 : FVec F S3456x1152 .f32 := Host.absf main_arg1
  let main_cst_0 : FVec F S_ .f32 := constant S_ .f32 0x7F800000#32
  let main_v5 : FVec F S3456x1152 .f32 := broadcastInDim S3456x1152 ![] bcast_S_S3456x1152 main_cst_0
  let main_v6 : IVec S3456x1152 1 := cmpf .olt main_v4 main_v5
  let main_c_1 : IVec S_ 1 := constantI S_ 1 1#1
  let main_v7 : IVec S_ 1 := (fun x v => Host.reduce IntOp.andi x v reducesTo_S3456x1152_S_d0_1 h_S_) main_v6 main_c_1
  let main_v8 : IVec S_ 1 := andi main_v3 main_v7
  let main_v9 : FVec F S72 .f32 := Host.absf main_arg2
  let main_cst_2 : FVec F S_ .f32 := constant S_ .f32 0x7F800000#32
  let main_v10 : FVec F S72 .f32 := broadcastInDim S72 ![] bcast_S_S72 main_cst_2
  let main_v11 : IVec S72 1 := cmpf .olt main_v9 main_v10
  let main_c_3 : IVec S_ 1 := constantI S_ 1 1#1
  let main_v12 : IVec S_ 1 := (fun x v => Host.reduce IntOp.andi x v reducesTo_S72_S_d0 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_arg5 main_v13 main_v16
-- ==== Kernel.lean ====
abbrev S2x8x32x32x1152 : Shape := ⟨5, ![2, 8, 32, 32, 1152]⟩
abbrev S3456x1152 : Shape := ⟨2, ![3456, 1152]⟩
abbrev S72 : Shape := ⟨1, ![72]⟩
abbrev S1152x1152 : Shape := ⟨2, ![1152, 1152]⟩
abbrev S1152 : Shape := ⟨1, ![1152]⟩
abbrev S1152x3456 : Shape := ⟨2, ![1152, 3456]⟩
abbrev S1x1152 : Shape := ⟨2, ![1, 1152]⟩
abbrev S1x72 : Shape := ⟨2, ![1, 72]⟩
abbrev S1x4x4x16x1152 : Shape := ⟨5, ![1, 4, 4, 16, 1152]⟩
abbrev S256x1152 : Shape := ⟨2, ![256, 1152]⟩
abbrev S4x4x16x1152 : Shape := ⟨4, ![4, 4, 16, 1152]⟩
abbrev S4x4x4x1152 : Shape := ⟨4, ![4, 4, 4, 1152]⟩
abbrev S64x1152 : Shape := ⟨2, ![64, 1152]⟩
abbrev S256x3456 : Shape := ⟨2, ![256, 3456]⟩
abbrev S1x1x72 : Shape := ⟨3, ![1, 1, 72]⟩
abbrev S64x3456 : Shape := ⟨2, ![64, 3456]⟩
abbrev S64x16x72 : Shape := ⟨3, ![64, 16, 72]⟩
abbrev S16x64x72 : Shape := ⟨3, ![16, 64, 72]⟩
abbrev S16x64 : Shape := ⟨2, ![16, 64]⟩
abbrev S16x64x1 : Shape := ⟨3, ![16, 64, 1]⟩
abbrev S16x64x64 : Shape := ⟨3, ![16, 64, 64]⟩

abbrev nBuf : Space → Nat
  | .hbm => 14
  | .vmem => 10
  | .smem => 0
  | _ => 0

abbrev bufTy : (tb : Table) → Fin (tcTables nBuf tb) → BufTy
  | .hbm, ⟨0, _⟩ => ⟨S2x8x32x32x1152, .f32⟩
  | .hbm, ⟨1, _⟩ => ⟨S3456x1152, .f32⟩
  | .hbm, ⟨2, _⟩ => ⟨S72, .f32⟩
  | .hbm, ⟨3, _⟩ => ⟨S72, .f32⟩
  | .hbm, ⟨4, _⟩ => ⟨S1152x1152, .f32⟩
  | .hbm, ⟨5, _⟩ => ⟨S1152, .f32⟩
  | .hbm, ⟨6, _⟩ => ⟨S1152x3456, .f32⟩
  | .hbm, ⟨7, _⟩ => ⟨S1152x3456, .bf16⟩
  | .hbm, ⟨8, _⟩ => ⟨S1152x1152, .f32⟩
  | .hbm, ⟨9, _⟩ => ⟨S1152x1152, .bf16⟩
  | .hbm, ⟨10, _⟩ => ⟨S1x1152, .f32⟩
  | .hbm, ⟨11, _⟩ => ⟨S1x72, .f32⟩
  | .hbm, ⟨12, _⟩ => ⟨S1x72, .f32⟩
  | .hbm, ⟨13, _⟩ => ⟨S2x8x32x32x1152, .f32⟩
  | .local _ .vmem, ⟨0, _⟩ => ⟨S1x4x4x16x1152, .f32⟩
  | .local _ .vmem, ⟨1, _⟩ => ⟨S1x4x4x16x1152, .f32⟩
  | .local _ .vmem, ⟨2, _⟩ => ⟨S1152x3456, .bf16⟩
  | .local _ .vmem, ⟨3, _⟩ => ⟨S1152x1152, .bf16⟩
  | .local _ .vmem, ⟨4, _⟩ => ⟨S1x1152, .f32⟩
  | .local _ .vmem, ⟨5, _⟩ => ⟨S1x72, .f32⟩
  | .local _ .vmem, ⟨6, _⟩ => ⟨S1x72, .f32⟩
  | .local _ .vmem, ⟨7, _⟩ => ⟨S1x4x4x16x1152, .f32⟩
  | .local _ .vmem, ⟨8, _⟩ => ⟨S1x4x4x16x1152, .f32⟩
  | .local _ .vmem, ⟨9, _⟩ => ⟨S256x1152, .f32⟩
  | _, _ => ⟨S2x8x32x32x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨4, ![2, 2, 8, 2], ![false, false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, arg3.toNat, c0_i32.toNat]

abbrev stage0_0 : Fin 2 → Memref sig .tc .vmem S1x4x4x16x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 1 → Memref sig .tc .vmem S1152x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .vmem S1152x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1x4x4x16x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

class Facts₀ : Prop where
  transposes_S3456x1152_S1152x3456_1_0 : S3456x1152.Transposes [1, 0] S1152x3456
  bitsLt_bf16_f32 : FTy.bits .bf16 < FTy.bits .f32
  transposes_S1152x1152_S1152x1152_1_0 : S1152x1152.Transposes [1, 0] S1152x1152
  shapeCasts_S1152_S1x1152 : S1152.ShapeCasts S1x1152
  shapeCasts_S72_S1x72 : S72.ShapeCasts S1x72
  inb_S1x4x4x16x1152_S1x4x4x16x1152_0_0_0_0_0 : ∀ a, (![0, 0, 0, 0, 0] : Fin 5 → Nat) a + S1x4x4x16x1152.size a ≤ S1x4x4x16x1152.size a
  h_S1x4x4x16x1152 : 0 < S1x4x4x16x1152.numel
  shapeCasts_S1x4x4x16x1152_S4x4x16x1152 : S1x4x4x16x1152.ShapeCasts S4x4x16x1152
  slices_S4x4x16x1152_o0_0_0_0_S4x4x4x1152 : S4x4x16x1152.Slices ![0, 0, 0, 0] S4x4x4x1152
  shapeCasts_S4x4x4x1152_S64x1152 : S4x4x4x1152.ShapeCasts S64x1152
  slices_S4x4x16x1152_o0_0_4_0_S4x4x4x1152 : S4x4x16x1152.Slices ![0, 0, 4, 0] S4x4x4x1152
  slices_S4x4x16x1152_o0_0_8_0_S4x4x4x1152 : S4x4x16x1152.Slices ![0, 0, 8, 0] S4x4x4x1152
  slices_S4x4x16x1152_o0_0_12_0_S4x4x4x1152 : S4x4x16x1152.Slices ![0, 0, 12, 0] S4x4x4x1152
  concatenates_S64x1152_S64x1152_S64x1152_S64x1152_S256x1152_d0 : Shape.Concatenates [S64x1152, S64x1152, S64x1152, S64x1152] S256x1152 0
  inb_S1152x3456_S1152x3456_0_0 : ∀ a, (![0, 0] : Fin 2 → Nat) a + S1152x3456.size a ≤ S1152x3456.size a
  h_S1152x3456 : 0 < S1152x3456.numel
  shapeCasts_S1152x3456_S1152x3456 : S1152x3456.ShapeCasts S1152x3456
  inb_S1x72_S1x72_0_0 : ∀ a, (![0, 0] : Fin 2 → Nat) a + S1x72.size a ≤ S1x72.size a
  h_S1x72 : 0 < S1x72.numel
  shapeCasts_S1x72_S1x72 : S1x72.ShapeCasts S1x72
  shapeCasts_S1x72_S1x1x72 : S1x72.ShapeCasts S1x1x72
  slices_S256x3456_o0_0_S64x3456 : S256x3456.Slices ![0, 0] S64x3456
  slices_S64x3456_o0_0_S64x1152 : S64x3456.Slices ![0, 0] S64x1152
  shapeCasts_S64x1152_S64x16x72 : S64x1152.ShapeCasts S64x16x72
  slices_S64x3456_o0_1152_S64x1152 : S64x3456.Slices ![0, 1152] S64x1152
  slices_S64x3456_o0_2304_S64x1152 : S64x3456.Slices ![0, 2304] S64x1152
  transposes_S64x16x72_p1_0_2_S16x64x72 : S64x16x72.Transposes [1, 0, 2] S16x64x72
  reduces_S16x64x72_S16x64 : S16x64x72.Reduces [2] S16x64
  shapeCasts_S16x64_S16x64x1 : S16x64.ShapeCasts S16x64x1
  broadcasts_S16x64x1_S16x64x72 : S16x64x1.Broadcasts S16x64x72
  broadcasts_S1x1x72_S16x64x72 : S1x1x72.Broadcasts S16x64x72
  reduces_S16x64x64_S16x64 : S16x64x64.Reduces [2] S16x64
  broadcasts_S16x64x1_S16x64x64 : S16x64x1.Broadcasts S16x64x64
  transposes_S16x64x72_p1_0_2_S64x16x72 : S16x64x72.Transposes [1, 0, 2] S64x16x72
  shapeCasts_S64x16x72_S64x1152 : S64x16x72.ShapeCasts S64x1152
  inb_S256x1152_S64x1152_0_0 : ∀ a, (![0, 0] : Fin 2 → Nat) a + S64x1152.size a ≤ S256x1152.size a
  h_S64x1152 : 0 < S64x1152.numel
  shapeCasts_S64x1152_S64x1152 : S64x1152.ShapeCasts S64x1152
  slices_S256x3456_o64_0_S64x3456 : S256x3456.Slices ![64, 0] S64x3456
  inb_S256x1152_S64x1152_64_0 : ∀ a, (![64, 0] : Fin 2 → Nat) a + S64x1152.size a ≤ S256x1152.size a
  slices_S256x3456_o128_0_S64x3456 : S256x3456.Slices ![128, 0] S64x3456
  inb_S256x1152_S64x1152_128_0 : ∀ a, (![128, 0] : Fin 2 → Nat) a + S64x1152.size a ≤ S256x1152.size a
  slices_S256x3456_o192_0_S64x3456 : S256x3456.Slices ![192, 0] S64x3456
  inb_S256x1152_S64x1152_192_0 : ∀ a, (![192, 0] : Fin 2 → Nat) a + S64x1152.size a ≤ S256x1152.size a
  inb_S256x1152_S256x1152_0_0 : ∀ a, (![0, 0] : Fin 2 → Nat) a + S256x1152.size a ≤ S256x1152.size a
  h_S256x1152 : 0 < S256x1152.numel
  inb_S1152x1152_S1152x1152_0_0 : ∀ a, (![0, 0] : Fin 2 → Nat) a + S1152x1152.size a ≤ S1152x1152.size a
  h_S1152x1152 : 0 < S1152x1152.numel
  shapeCasts_S1152x1152_S1152x1152 : S1152x1152.ShapeCasts S1152x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S256x1152 : S1x1152.Broadcasts S256x1152
  slices_S256x1152_o0_0_S64x1152 : S256x1152.Slices ![0, 0] S64x1152
  shapeCasts_S64x1152_S4x4x4x1152 : S64x1152.ShapeCasts S4x4x4x1152
  slices_S256x1152_o64_0_S64x1152 : S256x1152.Slices ![64, 0] S64x1152
  slices_S256x1152_o128_0_S64x1152 : S256x1152.Slices ![128, 0] S64x1152
  slices_S256x1152_o192_0_S64x1152 : S256x1152.Slices ![192, 0] S64x1152
  concatenates_S4x4x4x1152_S4x4x4x1152_S4x4x4x1152_S4x4x4x1152_S4x4x16x1152_d2 : Shape.Concatenates [S4x4x4x1152, S4x4x4x1152, S4x4x4x1152, S4x4x4x1152] S4x4x16x1152 2
  shapeCasts_S4x4x16x1152_S1x4x4x16x1152 : S4x4x16x1152.ShapeCasts S1x4x4x16x1152
  dot_S256x1152_S1152x3456_S256x3456_1_0_0_1_n_n_wf : DotDims.WF S256x1152 S1152x3456 S256x3456 [1] [0] [0] [1] [] []
  dot_S16x64x72_S16x64x72_S16x64x64_2_2_1_1_0_0_wf : DotDims.WF S16x64x72 S16x64x72 S16x64x64 [2] [2] [1] [1] [0] [0]
  dot_S16x64x64_S16x64x72_S16x64x72_2_1_1_2_0_0_wf : DotDims.WF S16x64x64 S16x64x72 S16x64x72 [2] [1] [1] [2] [0] [0]
  dot_S256x1152_S1152x1152_S256x1152_1_0_0_1_n_n_wf : DotDims.WF S256x1152 S1152x1152 S256x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4x16x1152.size a ≤ S2x8x32x32x1152.size a
  hwx0_0 : ∀ i : grid0.Coords, EltTy.bits .f32 = 32 ∨ (Rect.block (s := S2x8x32x32x1152) S1x4x4x16x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x3456.size a ≤ S1152x3456.size a
  hwx0_1 : ∀ i : grid0.Coords, EltTy.bits .bf16 = 32 ∨ (Rect.block (s := S1152x3456) S1152x3456.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x1152.size a ≤ S1152x1152.size a
  hwx0_2 : ∀ i : grid0.Coords, EltTy.bits .bf16 = 32 ∨ (Rect.block (s := S1152x1152) S1152x1152.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1152.size a ≤ S1x1152.size a
  hwx0_3 : ∀ i : grid0.Coords, EltTy.bits .f32 = 32 ∨ (Rect.block (s := S1x1152) S1x1152.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x72.size a ≤ S1x72.size a
  hwx0_4 : ∀ i : grid0.Coords, EltTy.bits .f32 = 32 ∨ (Rect.block (s := S1x72) S1x72.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x72.size a ≤ S1x72.size a
  hwx0_5 : ∀ i : grid0.Coords, EltTy.bits .f32 = 32 ∨ (Rect.block (s := S1x72) S1x72.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x4x16x1152.size a ≤ S2x8x32x32x1152.size a
  hwx0_6 : ∀ i : grid0.Coords, EltTy.bits .f32 = 32 ∨ (Rect.block (s := S2x8x32x32x1152) S1x4x4x16x1152.size (cc0_transform_6 i) (hinb0_6 i)).WholeWords (EltTy.packing .f32)

variable [Facts₀]

def dot_S256x1152_S1152x3456_S256x3456_1_0_0_1_n_n : DotDims S256x1152 S1152x3456 S256x3456 where
  lhsContracting := [1]
  rhsContracting := [0]
  lhsNonContracting := [0]
  rhsNonContracting := [1]
  lhsBatch := []
  rhsBatch := []
  wf := dot_S256x1152_S1152x3456_S256x3456_1_0_0_1_n_n_wf
def dot_S16x64x72_S16x64x72_S16x64x64_2_2_1_1_0_0 : DotDims S16x64x72 S16x64x72 S16x64x64 where
  lhsContracting := [2]
  rhsContracting := [2]
  lhsNonContracting := [1]
  rhsNonContracting := [1]
  lhsBatch := [0]
  rhsBatch := [0]
  wf := dot_S16x64x72_S16x64x72_S16x64x64_2_2_1_1_0_0_wf
def dot_S16x64x64_S16x64x72_S16x64x72_2_1_1_2_0_0 : DotDims S16x64x64 S16x64x72 S16x64x72 where
  lhsContracting := [2]
  rhsContracting := [1]
  lhsNonContracting := [1]
  rhsNonContracting := [2]
  lhsBatch := [0]
  rhsBatch := [0]
  wf := dot_S16x64x64_S16x64x72_S16x64x72_2_1_1_2_0_0_wf
def dot_S256x1152_S1152x1152_S256x1152_1_0_0_1_n_n : DotDims S256x1152 S1152x1152 S256x1152 where
  lhsContracting := [1]
  rhsContracting := [0]
  lhsNonContracting := [0]
  rhsNonContracting := [1]
  lhsBatch := []
  rhsBatch := []
  wf := dot_S256x1152_S1152x1152_S256x1152_1_0_0_1_n_n_wf

abbrev win0_0 : Pipeline.Window sig grid0 :=
  Pipeline.Window.ofSpec (Memref.whole main_arg0) S1x4x4x16x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1152x3456.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1152x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x72.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x72.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4x4x16x1152.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x8x32x32x1152 : Shape := ⟨5, ![2, 8, 32, 32, 1152]⟩
abbrev S3456x1152 : Shape := ⟨2, ![3456, 1152]⟩
abbrev S72 : Shape := ⟨1, ![72]⟩
abbrev S1152x1152 : Shape := ⟨2, ![1152, 1152]⟩
abbrev S1152 : Shape := ⟨1, ![1152]⟩
abbrev S2x2x4x8x4x8x4x1152 : Shape := ⟨8, ![2, 2, 4, 8, 4, 8, 4, 1152]⟩
abbrev S2x8x8x2x4x4x4x1152 : Shape := ⟨8, ![2, 8, 8, 2, 4, 4, 4, 1152]⟩
abbrev S256x64x1152 : Shape := ⟨3, ![256, 64, 1152]⟩
abbrev S256x64x3456 : Shape := ⟨3, ![256, 64, 3456]⟩
abbrev S256x64x3x16x72 : Shape := ⟨5, ![256, 64, 3, 16, 72]⟩
abbrev S3x256x16x64x72 : Shape := ⟨5, ![3, 256, 16, 64, 72]⟩
abbrev S1x256x16x64x72 : Shape := ⟨5, ![1, 256, 16, 64, 72]⟩
abbrev S256x16x64x72 : Shape := ⟨4, ![256, 16, 64, 72]⟩
abbrev S_ : Shape := ⟨0, ![]⟩
abbrev S256x16x64 : Shape := ⟨3, ![256, 16, 64]⟩
abbrev S256x16x64x1 : Shape := ⟨4, ![256, 16, 64, 1]⟩
abbrev S1x1x1x72 : Shape := ⟨4, ![1, 1, 1, 72]⟩
abbrev S256x16x64x64 : Shape := ⟨4, ![256, 16, 64, 64]⟩
abbrev S256x64x16x72 : Shape := ⟨4, ![256, 64, 16, 72]⟩
abbrev S1x1x1x1x1152 : Shape := ⟨5, ![1, 1, 1, 1, 1152]⟩

abbrev nBuf : Space → Nat
  | .hbm => 78
  | .vmem => 0
  | .smem => 0
  | _ => 0

abbrev bufTy : (tb : Table) → Fin (tcTables nBuf tb) → BufTy
  | .hbm, ⟨0, _⟩ => ⟨S2x8x32x32x1152, .f32⟩
  | .hbm, ⟨1, _⟩ => ⟨S3456x1152, .f32⟩
  | .hbm, ⟨2, _⟩ => ⟨S72, .f32⟩
  | .hbm, ⟨3, _⟩ => ⟨S72, .f32⟩
  | .hbm, ⟨4, _⟩ => ⟨S1152x1152, .f32⟩
  | .hbm, ⟨5, _⟩ => ⟨S1152, .f32⟩
  | .hbm, ⟨6, _⟩ => ⟨S2x2x4x8x4x8x4x1152, .f32⟩
  | .hbm, ⟨7, _⟩ => ⟨S2x8x8x2x4x4x4x1152, .f32⟩
  | .hbm, ⟨8, _⟩ => ⟨S256x64x1152, .f32⟩
  | .hbm, ⟨9, _⟩ => ⟨S256x64x3456, .f32⟩
  | .hbm, ⟨10, _⟩ => ⟨S256x64x3x16x72, .f32⟩
  | .hbm, ⟨11, _⟩ => ⟨S3x256x16x64x72, .f32⟩
  | .hbm, ⟨12, _⟩ => ⟨S1x256x16x64x72, .f32⟩
  | .hbm, ⟨13, _⟩ => ⟨S256x16x64x72, .f32⟩
  | .hbm, ⟨14, _⟩ => ⟨S1x256x16x64x72, .f32⟩
  | .hbm, ⟨15, _⟩ => ⟨S256x16x64x72, .f32⟩
  | .hbm, ⟨16, _⟩ => ⟨S1x256x16x64x72, .f32⟩
  | .hbm, ⟨17, _⟩ => ⟨S256x16x64x72, .f32⟩
  | .hbm, ⟨18, _⟩ => ⟨S256x16x64x72, .f32⟩
  | .hbm, ⟨19, _⟩ => ⟨S_, .f32⟩
  | .hbm, ⟨20, _⟩ => ⟨S256x16x64, .f32⟩
  | .hbm, ⟨21, _⟩ => ⟨S256x16x64x1, .f32⟩
  | .hbm, ⟨22, _⟩ => ⟨S_, .f32⟩
  | .hbm, ⟨23, _⟩ => ⟨S256x16x64x1, .f32⟩
  | .hbm, ⟨24, _⟩ => ⟨S256x16x64x1, .f32⟩
  | .hbm, ⟨25, _⟩ => ⟨S_, .f32⟩
  | .hbm, ⟨26, _⟩ => ⟨S256x16x64x1, .f32⟩
  | .hbm, ⟨27, _⟩ => ⟨S256x16x64x1, .f32⟩
  | .hbm, ⟨28, _⟩ => ⟨S256x16x64x1, .f32⟩
  | .hbm, ⟨29, _⟩ => ⟨S256x16x64x72, .f32⟩
  | .hbm, ⟨30, _⟩ => ⟨S256x16x64x72, .f32⟩
  | .hbm, ⟨31, _⟩ => ⟨S1x1x1x72, .f32⟩
  | .hbm, ⟨32, _⟩ => ⟨S256x16x64x72, .f32⟩
  | .hbm, ⟨33, _⟩ => ⟨S256x16x64x72, .f32⟩
  | .hbm, ⟨34, _⟩ => ⟨S256x16x64x72, .f32⟩
  | .hbm, ⟨35, _⟩ => ⟨S_, .f32⟩
  | .hbm, ⟨36, _⟩ => ⟨S256x16x64, .f32⟩
  | .hbm, ⟨37, _⟩ => ⟨S256x16x64x1, .f32⟩
  | .hbm, ⟨38, _⟩ => ⟨S_, .f32⟩
  | .hbm, ⟨39, _⟩ => ⟨S256x16x64x1, .f32⟩
  | .hbm, ⟨40, _⟩ => ⟨S256x16x64x1, .f32⟩
  | .hbm, ⟨41, _⟩ => ⟨S_, .f32⟩
  | .hbm, ⟨42, _⟩ => ⟨S256x16x64x1, .f32⟩
  | .hbm, ⟨43, _⟩ => ⟨S256x16x64x1, .f32⟩
  | .hbm, ⟨44, _⟩ => ⟨S256x16x64x1, .f32⟩
  | .hbm, ⟨45, _⟩ => ⟨S256x16x64x72, .f32⟩
  | .hbm, ⟨46, _⟩ => ⟨S256x16x64x72, .f32⟩
  | .hbm, ⟨47, _⟩ => ⟨S1x1x1x72, .f32⟩
  | .hbm, ⟨48, _⟩ => ⟨S256x16x64x72, .f32⟩
  | .hbm, ⟨49, _⟩ => ⟨S256x16x64x72, .f32⟩
  | .hbm, ⟨50, _⟩ => ⟨S_, .f32⟩
  | .hbm, ⟨51, _⟩ => ⟨S256x16x64x72, .f32⟩
  | .hbm, ⟨52, _⟩ => ⟨S256x16x64x72, .f32⟩
  | .hbm, ⟨53, _⟩ => ⟨S256x16x64x64, .f32⟩
  | .hbm, ⟨54, _⟩ => ⟨S_, .f32⟩
  | .hbm, ⟨55, _⟩ => ⟨S256x16x64, .f32⟩
  | .hbm, ⟨56, _⟩ => ⟨S_, .f32⟩
  | .hbm, ⟨57, _⟩ => ⟨S256x16x64, .f32⟩
  | .hbm, ⟨58, _⟩ => ⟨S256x16x64, .f32⟩
  | .hbm, ⟨59, _⟩ => ⟨S256x16x64x1, .f32⟩
  | .hbm, ⟨60, _⟩ => ⟨S256x16x64x64, .f32⟩
  | .hbm, ⟨61, _⟩ => ⟨S256x16x64x64, .f32⟩
  | .hbm, ⟨62, _⟩ => ⟨S256x16x64x64, .f32⟩
  | .hbm, ⟨63, _⟩ => ⟨S_, .f32⟩
  | .hbm, ⟨64, _⟩ => ⟨S256x16x64, .f32⟩
  | .hbm, ⟨65, _⟩ => ⟨S256x16x64x1, .f32⟩
  | .hbm, ⟨66, _⟩ => ⟨S256x16x64x64, .f32⟩
  | .hbm, ⟨67, _⟩ => ⟨S256x16x64x64, .f32⟩
  | .hbm, ⟨68, _⟩ => ⟨S256x16x64x72, .f32⟩
  | .hbm, ⟨69, _⟩ => ⟨S256x64x16x72, .f32⟩
  | .hbm, ⟨70, _⟩ => ⟨S256x64x1152, .f32⟩
  | .hbm, ⟨71, _⟩ => ⟨S2x8x8x2x4x4x4x1152, .f32⟩
  | .hbm, ⟨72, _⟩ => ⟨S2x2x4x8x4x8x4x1152, .f32⟩
  | .hbm, ⟨73, _⟩ => ⟨S2x8x32x32x1152, .f32⟩
  | .hbm, ⟨74, _⟩ => ⟨S2x8x32x32x1152, .f32⟩
  | .hbm, ⟨75, _⟩ => ⟨S1x1x1x1x1152, .f32⟩
  | .hbm, ⟨76, _⟩ => ⟨S2x8x32x32x1152, .f32⟩
  | .hbm, ⟨77, _⟩ => ⟨S2x8x32x32x1152, .f32⟩
  | _, _ => ⟨S2x8x32x32x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]

class Facts₀ : Prop where
  shapeCasts_S2x8x32x32x1152_S2x2x4x8x4x8x4x1152 : S2x8x32x32x1152.ShapeCasts S2x2x4x8x4x8x4x1152
  transposes_S2x2x4x8x4x8x4x1152_S2x8x8x2x4x4x4x1152_1_3_5_0_2_4_6_7 : S2x2x4x8x4x8x4x1152.Transposes [1, 3, 5, 0, 2, 4, 6, 7] S2x8x8x2x4x4x4x1152
  shapeCasts_S2x8x8x2x4x4x4x1152_S256x64x1152 : S2x8x8x2x4x4x4x1152.ShapeCasts S256x64x1152
  shapeCasts_S256x64x3456_S256x64x3x16x72 : S256x64x3456.ShapeCasts S256x64x3x16x72
  transposes_S256x64x3x16x72_S3x256x16x64x72_2_0_3_1_4 : S256x64x3x16x72.Transposes [2, 0, 3, 1, 4] S3x256x16x64x72
  slices_S3x256x16x64x72_S1x256x16x64x72_0_0_0_0_0 : S3x256x16x64x72.Slices ![0, 0, 0, 0, 0] S1x256x16x64x72
  shapeCasts_S1x256x16x64x72_S256x16x64x72 : S1x256x16x64x72.ShapeCasts S256x16x64x72
  slices_S3x256x16x64x72_S1x256x16x64x72_1_0_0_0_0 : S3x256x16x64x72.Slices ![1, 0, 0, 0, 0] S1x256x16x64x72
  slices_S3x256x16x64x72_S1x256x16x64x72_2_0_0_0_0 : S3x256x16x64x72.Slices ![2, 0, 0, 0, 0] S1x256x16x64x72
  reducesTo_S256x16x64x72_S256x16x64_d3 : S256x16x64x72.ReducesTo [3] S256x16x64
  h_S_ : 0 < S_.numel
  bcast_S256x16x64_S256x16x64x1_0_1_2 : S256x16x64.BroadcastsInDim S256x16x64x1 (![0, 1, 2] : Fin 3 → Fin S256x16x64x1.rank)
  bcast_S_S256x16x64x1 : S_.BroadcastsInDim S256x16x64x1 (![] : Fin 0 → Fin S256x16x64x1.rank)
  bcast_S256x16x64x1_S256x16x64x72_0_1_2_3 : S256x16x64x1.BroadcastsInDim S256x16x64x72 (![0, 1, 2, 3] : Fin 4 → Fin S256x16x64x72.rank)
  bcast_S72_S1x1x1x72_3 : S72.BroadcastsInDim S1x1x1x72 (![3] : Fin 1 → Fin S1x1x1x72.rank)
  bcast_S1x1x1x72_S256x16x64x72_0_1_2_3 : S1x1x1x72.BroadcastsInDim S256x16x64x72 (![0, 1, 2, 3] : Fin 4 → Fin S256x16x64x72.rank)
  bcast_S_S256x16x64x72 : S_.BroadcastsInDim S256x16x64x72 (![] : Fin 0 → Fin S256x16x64x72.rank)
  reducesTo_S256x16x64x64_S256x16x64_d3 : S256x16x64x64.ReducesTo [3] S256x16x64
  bcast_S_S256x16x64 : S_.BroadcastsInDim S256x16x64 (![] : Fin 0 → Fin S256x16x64.rank)
  bcast_S256x16x64x1_S256x16x64x64_0_1_2_3 : S256x16x64x1.BroadcastsInDim S256x16x64x64 (![0, 1, 2, 3] : Fin 4 → Fin S256x16x64x64.rank)
  transposes_S256x16x64x72_S256x64x16x72_0_2_1_3 : S256x16x64x72.Transposes [0, 2, 1, 3] S256x64x16x72
  shapeCasts_S256x64x16x72_S256x64x1152 : S256x64x16x72.ShapeCasts S256x64x1152
  shapeCasts_S256x64x1152_S2x8x8x2x4x4x4x1152 : S256x64x1152.ShapeCasts S2x8x8x2x4x4x4x1152
  transposes_S2x8x8x2x4x4x4x1152_S2x2x4x8x4x8x4x1152_3_0_4_1_5_2_6_7 : S2x8x8x2x4x4x4x1152.Transposes [3, 0, 4, 1, 5, 2, 6, 7] S2x2x4x8x4x8x4x1152
  shapeCasts_S2x2x4x8x4x8x4x1152_S2x8x32x32x1152 : S2x2x4x8x4x8x4x1152.ShapeCasts S2x8x32x32x1152
  bcast_S1152_S1x1x1x1x1152_4 : S1152.BroadcastsInDim S1x1x1x1x1152 (![4] : Fin 1 → Fin S1x1x1x1x1152.rank)
  bcast_S1x1x1x1x1152_S2x8x32x32x1152_0_1_2_3_4 : S1x1x1x1x1152.BroadcastsInDim S2x8x32x32x1152 (![0, 1, 2, 3, 4] : Fin 5 → Fin S2x8x32x32x1152.rank)
  dot_S256x64x1152_S3456x1152_S256x64x3456_2_1_01_0_n_n_wf : DotDims.WF S256x64x1152 S3456x1152 S256x64x3456 [2] [1] [0, 1] [0] [] []
  dot_S256x16x64x72_S256x16x64x72_S256x16x64x64_3_3_2_2_01_01_wf : DotDims.WF S256x16x64x72 S256x16x64x72 S256x16x64x64 [3] [3] [2] [2] [0, 1] [0, 1]
  dot_S256x16x64x64_S256x16x64x72_S256x16x64x72_3_2_2_3_01_01_wf : DotDims.WF S256x16x64x64 S256x16x64x72 S256x16x64x72 [3] [2] [2] [3] [0, 1] [0, 1]
  dot_S2x8x32x32x1152_S1152x1152_S2x8x32x32x1152_4_1_0123_0_n_n_wf : DotDims.WF S2x8x32x32x1152 S1152x1152 S2x8x32x32x1152 [4] [1] [0, 1, 2, 3] [0] [] []

variable [Facts₀]

def dot_S256x64x1152_S3456x1152_S256x64x3456_2_1_01_0_n_n : DotDims S256x64x1152 S3456x1152 S256x64x3456 where
  lhsContracting := [2]
  rhsContracting := [1]
  lhsNonContracting := [0, 1]
  rhsNonContracting := [0]
  lhsBatch := []
  rhsBatch := []
  wf := dot_S256x64x1152_S3456x1152_S256x64x3456_2_1_01_0_n_n_wf
def dot_S256x16x64x72_S256x16x64x72_S256x16x64x64_3_3_2_2_01_01 : DotDims S256x16x64x72 S256x16x64x72 S256x16x64x64 where
  lhsContracting := [3]
  rhsContracting := [3]
  lhsNonContracting := [2]
  rhsNonContracting := [2]
  lhsBatch := [0, 1]
  rhsBatch := [0, 1]
  wf := dot_S256x16x64x72_S256x16x64x72_S256x16x64x64_3_3_2_2_01_01_wf
def dot_S256x16x64x64_S256x16x64x72_S256x16x64x72_3_2_2_3_01_01 : DotDims S256x16x64x64 S256x16x64x72 S256x16x64x72 where
  lhsContracting := [3]
  rhsContracting := [2]
  lhsNonContracting := [2]
  rhsNonContracting := [3]
  lhsBatch := [0, 1]
  rhsBatch := [0, 1]
  wf := dot_S256x16x64x64_S256x16x64x72_S256x16x64x72_3_2_2_3_01_01_wf
def dot_S2x8x32x32x1152_S1152x1152_S2x8x32x32x1152_4_1_0123_0_n_n : DotDims S2x8x32x32x1152 S1152x1152 S2x8x32x32x1152 where
  lhsContracting := [4]
  rhsContracting := [1]
  lhsNonContracting := [0, 1, 2, 3]
  rhsNonContracting := [0]
  lhsBatch := []
  rhsBatch := []
  wf := dot_S2x8x32x32x1152_S1152x1152_S2x8x32x32x1152_4_1_0123_0_n_n_wf

class Facts : Prop extends Facts₀ where

variable [Facts]
-- ==== Proof.AttnSpec.lean ====
/- The mathematics both programs compute, written once on extended reals.

   A WINDOW is a 4x4x4 brick of the input: 64 tokens of 1152 channels. From a window's tokens
   `X` the result is, in order: the projection `proj n o = ∑ c, X n c * W o c` to 3 * 1152 columns,
   read as three parts (queries, keys, values) of 16 heads of 72 features; queries and keys scaled,
   per head and token, by the reciprocal root of the mean of their squares plus a small constant,
   and by a per-feature weight; the queries scaled once more by a fixed constant; the scores of every
   query against every key; the softmax of the scores over the keys (shifted by their maximum);
   the values averaged with those weights; the heads laid side by side; a last projection and a
   bias. The whole result at `(b, t, h, w, o)` is the window containing `(t, h, w)` evaluated at
   the position of `(t, h, w)` inside it.

   Float literals stay as their words: the same word stands on both sides and is never evaluated. -/
import Idealize.ShloMosaic.PureOps.Ideal
import Idealize.ShloMosaic.Lib.ValueIdx

noncomputable section

open scoped BigOperators

namespace Cert.AttnSpec

open Idealize.ShloMosaic Idealize.ShloMosaic.ValueIdx

/-- 72.0, the number of features the mean square is taken over. -/
local notation "c72" => (Ideal.ofBits FTy.f32 0x42900000#32 : EReal)
/-- The small constant added to the mean square. -/
local notation "ceps" => (Ideal.ofBits FTy.f32 0x358637BD#32 : EReal)
/-- The fixed scale of the queries. -/
local notation "cscale" => (Ideal.ofBits FTy.f32 0x3DF15BEF#32 : EReal)
/-- Minus infinity, where the maximum starts. -/
local notation "cninf" => (Ideal.ofBits FTy.f32 0xFF800000#32 : EReal)

/-- The reciprocal root of (mean square + constant) of 72 numbers. -/
def rinv (v : Fin 72 → EReal) : EReal :=
  Ideal.rsqrt (Ideal.div (∑ d : Fin 72, v d * v d) c72 + ceps)

/-- Column of part `p` (0 queries, 1 keys, 2 values), head `h`, feature `d` among the 3456. -/
def col (p : Fin 3) (h : Fin 16) (d : Fin 72) : Fin 3456 :=
  ⟨p.val * 1152 + h.val * 72 + d.val, by have := p.isLt; have := h.isLt; have := d.isLt; omega⟩

/-- Head and feature of a channel among the 1152. -/
def headOf (c : Fin 1152) : Fin 16 := ⟨c.val / 72, by have := c.isLt; omega⟩
def featOf (c : Fin 1152) : Fin 72 := ⟨c.val % 72, by omega⟩

section Window

variable (X : Fin 64 → Fin 1152 → EReal) (W : Fin 3456 → Fin 1152 → EReal)
variable (qw kw : Fin 72 → EReal) (P : Fin 1152 → Fin 1152 → EReal) (bp : Fin 1152 → EReal)

/-- The first projection. -/
def proj (n : Fin 64) (o : Fin 3456) : EReal := ∑ c : Fin 1152, X n c * W o c

/-- Part `p`, head `h`, token `n`, feature `d` of the projection. -/
def part (p : Fin 3) (h : Fin 16) (n : Fin 64) (d : Fin 72) : EReal := proj X W n (col p h d)

/-- Normalised, weighted and scaled queries. -/
def qn (h : Fin 16) (n : Fin 64) (d : Fin 72) : EReal :=
  ((part X W 0 h n d * rinv (part X W 0 h n)) * qw d) * cscale

/-- Normalised and weighted keys. -/
def kn (h : Fin 16) (n : Fin 64) (d : Fin 72) : EReal :=
  (part X W 1 h n d * rinv (part X W 1 h n)) * kw d

/-- Query `q` against key `k`. -/
def score (h : Fin 16) (q k : Fin 64) : EReal := ∑ d : Fin 72, qn X W qw h q d * kn X W kw h k d

/-- The largest score of a query (the maximum starts at minus infinity, and is compared with it once more). -/
def smax (h : Fin 16) (q : Fin 64) : EReal :=
  max cninf (Finset.univ.fold max cninf (fun k : Fin 64 => score X W qw kw h q k))

def ex (h : Fin 16) (q k : Fin 64) : EReal := Ideal.exp (score X W qw kw h q k - smax X W qw kw h q)

def den (h : Fin 16) (q : Fin 64) : EReal := ∑ k : Fin 64, ex X W qw kw h q k

/-- The softmax weight of key `k` for query `q`. -/
def prob (h : Fin 16) (q k : Fin 64) : EReal := Ideal.div (ex X W qw kw h q k) (den X W qw kw h q)

/-- The weighted average of the values. -/
def att (h : Fin 16) (n : Fin 64) (d : Fin 72) : EReal := ∑ k : Fin 64, prob X W qw kw h n k * part X W 2 h k d

/-- The heads side by side: channel `c` is feature `c % 72` of head `c / 72`. -/
def heads (n : Fin 64) (c : Fin 1152) : EReal := att X W qw kw (headOf c) n (featOf c)

/-- The window's result. -/
def out (n : Fin 64) (o : Fin 1152) : EReal := (∑ c : Fin 1152, heads X W qw kw n c * P o c) + bp o

end Window

/-- Token `n` of the window at brick `(n1, n2, n3)` of batch `b`: token `n = (k1 * 4 + k2) * 4 + k3` sits at
    `(4 * n1 + k1, 4 * n2 + k2, 4 * n3 + k3)`. -/
def tok (x : (⟨5, ![2, 8, 32, 32, 1152]⟩ : Shape).Idx → EReal) (b : Fin 2) (n1 : Fin 2) (n2 : Fin 8) (n3 : Fin 8)
    (n : Fin 64) (c : Fin 1152) : EReal :=
  x (ix5 b (⟨n1.val * 4 + n.val / 16, by have := n1.isLt; have := n.isLt; omega⟩ : Fin 8)
      (⟨n2.val * 4 + n.val / 4 % 4, by have := n2.isLt; omega⟩ : Fin 32)
      (⟨n3.val * 4 + n.val % 4, by have := n3.isLt; omega⟩ : Fin 32) c)

/-- The whole result at explicit coordinates. -/
def Gc (x : (⟨5, ![2, 8, 32, 32, 1152]⟩ : Shape).Idx → EReal) (wqkv : (⟨2, ![3456, 1152]⟩ : Shape).Idx → EReal)
    (qw kw : (⟨1, ![72]⟩ : Shape).Idx → EReal) (wp : (⟨2, ![1152, 1152]⟩ : Shape).Idx → EReal)
    (bp : (⟨1, ![1152]⟩ : Shape).Idx → EReal) (b : Fin 2) (t : Fin 8) (h : Fin 32) (w : Fin 32) (o : Fin 1152) : EReal :=
  out (tok x b (⟨t.val / 4, by have := t.isLt; omega⟩ : Fin 2) (⟨h.val / 4, by have := h.isLt; omega⟩ : Fin 8)
        (⟨w.val / 4, by have := w.isLt; omega⟩ : Fin 8))
    (fun o c => wqkv (ix2 o c)) (fun d => qw (ix1 d)) (fun d => kw (ix1 d)) (fun o c => wp (ix2 o c)) (fun o => bp (ix1 o))
    (⟨(t.val % 4 * 4 + h.val % 4) * 4 + w.val % 4, by omega⟩ : Fin 64) o

/-- The whole result, index by index. -/
def G (x : (⟨5, ![2, 8, 32, 32, 1152]⟩ : Shape).Idx → EReal) (wqkv : (⟨2, ![3456, 1152]⟩ : Shape).Idx → EReal)
    (qw kw : (⟨1, ![72]⟩ : Shape).Idx → EReal) (wp : (⟨2, ![1152, 1152]⟩ : Shape).Idx → EReal)
    (bp : (⟨1, ![1152]⟩ : Shape).Idx → EReal) (i : (⟨5, ![2, 8, 32, 32, 1152]⟩ : Shape).Idx) : EReal :=
  Gc x wqkv qw kw wp bp (i 0) (i 1) (i 2) (i 3) (i 4)

end Cert.AttnSpec

end
-- ==== Proof.KGrid.lean ====
import proofs.«104549_j17987323036091_2_alg».proof.Proof.Gen.KernelIdeal.Value
import proofs.«104549_j17987323036091_2_alg».proof.Proof.AttnSpec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Attn

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.AttnSpec
open Idealize.ShloMosaic.Pipeline (Dat)

variable (m : (ℓ : Loc nD τ sig) → Buf (Elt Ideal) ℓ) (ρ : Dev nD → PrngReg)

/-! ## The arrays the region finds

Before the region the host transposes the two weight matrices (and narrows them, which changes nothing on
extended reals) and views the bias and the two weight rows as one-row matrices. -/

theorem V_v1_apply (c : Dev nD) (k : Fin 1152) (o : Fin 3456) :
    (V m c main_v1 : S1152x3456.Idx → EReal) (ix2 k o) = (m ((c : Thread nD τ).loc main_arg1) : S3456x1152.Idx → EReal) (ix2 o k) := by
  have e : @Eq (S1152x3456.Idx → EReal) (V m c main_v1)
      (truncf (F := Ideal) .bf16 (transpose S1152x3456 [1, 0] (m ((c : Thread nD τ).loc main_arg1) : S3456x1152.Idx → EReal) transposes_S3456x1152_S1152x3456_1_0) bitsLt_bf16_f32) := by
    dsimp only [Gen.V, Gen.hostOps0]; after_results
  rw [e, truncf_apply]
  exact transpose_apply [1, 0] _ transposes_S3456x1152_S1152x3456_1_0 (ix2 k o) (ix2 o k)
    (fun b => match b with | ⟨0, _⟩ => rfl | ⟨1, _⟩ => rfl)

theorem V_v3_apply (c : Dev nD) (k : Fin 1152) (o : Fin 1152) :
    (V m c main_v3 : S1152x1152.Idx → EReal) (ix2 k o) = (m ((c : Thread nD τ).loc main_arg4) : S1152x1152.Idx → EReal) (ix2 o k) := by
  have e : @Eq (S1152x1152.Idx → EReal) (V m c main_v3)
      (truncf (F := Ideal) .bf16 (transpose S1152x1152 [1, 0] (m ((c : Thread nD τ).loc main_arg4) : S1152x1152.Idx → EReal) transposes_S1152x1152_S1152x1152_1_0) bitsLt_bf16_f32) := by
    dsimp only [Gen.V, Gen.hostOps0]; after_results
  rw [e, truncf_apply]
  exact transpose_apply [1, 0] _ transposes_S1152x1152_S1152x1152_1_0 (ix2 k o) (ix2 o k)
    (fun b => match b with | ⟨0, _⟩ => rfl | ⟨1, _⟩ => rfl)

theorem V_v4_apply (c : Dev nD) (o : Fin 1152) :
    (V m c main_v4 : S1x1152.Idx → EReal) (ix2 (0 : Fin 1) o) = (m ((c : Thread nD τ).loc main_arg5) : S1152.Idx → EReal) (ix1 o) := by
  have e : (V m c main_v4 : S1x1152.Idx → EReal)
      = shapeCast S1x1152 (m ((c : Thread nD τ).loc main_arg5) : S1152.Idx → EReal) shapeCasts_S1152_S1x1152 := by
    dsimp only [Gen.V, Gen.hostOps0]; after_results; rfl
  rw [e]
  exact shapeCast_apply _ shapeCasts_S1152_S1x1152 (ix2 (0 : Fin 1) o) (ix1 o)
    (by rw [Shape.rowMajor_val_one, Shape.rowMajor_val_two]; show o.val = 0 * 1152 + o.val; omega)

theorem V_v5_apply (c : Dev nD) (d : Fin 72) :
    (V m c main_v5 : S1x72.Idx → EReal) (ix2 (0 : Fin 1) d) = (m ((c : Thread nD τ).loc main_arg2) : S72.Idx → EReal) (ix1 d) := by
  have e : (V m c main_v5 : S1x72.Idx → EReal)
      = shapeCast S1x72 (m ((c : Thread nD τ).loc main_arg2) : S72.Idx → EReal) shapeCasts_S72_S1x72 := by
    dsimp only [Gen.V, Gen.hostOps0]; after_results; rfl
  rw [e]
  exact shapeCast_apply _ shapeCasts_S72_S1x72 (ix2 (0 : Fin 1) d) (ix1 d)
    (by rw [Shape.rowMajor_val_one, Shape.rowMajor_val_two]; show d.val = 0 * 72 + d.val; omega)

theorem V_v6_apply (c : Dev nD) (d : Fin 72) :
    (V m c main_v6 : S1x72.Idx → EReal) (ix2 (0 : Fin 1) d) = (m ((c : Thread nD τ).loc main_arg3) : S72.Idx → EReal) (ix1 d) := by
  have e : (V m c main_v6 : S1x72.Idx → EReal)
      = shapeCast S1x72 (m ((c : Thread nD τ).loc main_arg3) : S72.Idx → EReal) shapeCasts_S72_S1x72 := by
    dsimp only [Gen.V, Gen.hostOps0]; after_results; rfl
  rw [e]
  exact shapeCast_apply _ shapeCasts_S72_S1x72 (ix2 (0 : Fin 1) d) (ix1 d)
    (by rw [Shape.rowMajor_val_one, Shape.rowMajor_val_two]; show d.val = 0 * 72 + d.val; omega)

/-! ## The grid

Point `t` has block indices `(b, ti, hi, wi, 0)` for the input and for the output alike, `b < 2`, `ti < 2`,
`hi < 8`, `wi < 2`; the other five operands are one whole block at every point; and every such
`(b, ti, hi, wi)` is some point's. -/

theorem idx_facts : ∀ t : Fin cfg0.N,
    win0_0.index t (0 : Fin 5) = win0_6.index t (0 : Fin 5) ∧ win0_0.index t (1 : Fin 5) = win0_6.index t (1 : Fin 5)
    ∧ win0_0.index t (2 : Fin 5) = win0_6.index t (2 : Fin 5) ∧ win0_0.index t (3 : Fin 5) = win0_6.index t (3 : Fin 5)
    ∧ win0_0.index t (4 : Fin 5) = 0 ∧ win0_6.index t (4 : Fin 5) = 0
    ∧ win0_6.index t (0 : Fin 5) ≤ 1 ∧ win0_6.index t (1 : Fin 5) ≤ 1 ∧ win0_6.index t (2 : Fin 5) ≤ 7 ∧ win0_6.index t (3 : Fin 5) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_onto : ∀ (q0 : Fin 2) (q1 : Fin 2) (q2 : Fin 8) (q3 : Fin 2), ∃ t : Fin cfg0.N, win0_6.index t = ![q0.val, q1.val, q2.val, q3.val, 0] :=
  (by decide +kernel : ∀ (q0 : Fin 2) (q1 : Fin 2) (q2 : Fin 8) (q3 : Fin 2), ∃ t : Fin grid0.N, win0_6.index t = ![q0.val, q1.val, q2.val, q3.val, 0])

/-- An index of the result array is in point `t`'s block iff each coordinate is in the block's range on its axis. -/
theorem mem_blk (t : Fin cfg0.N) (i : S2x8x32x32x1152.Idx) :
    i ∈ ((cfg0.win 6).blk t).view.set ↔ ∀ a : Fin 5, win0_6.index t a * S1x4x4x16x1152.size a ≤ (i a).val ∧ (i a).val < win0_6.index t a * S1x4x4x16x1152.size a + S1x4x4x16x1152.size a := by
  show i ∈ ((View.whole main_v7).slice (win0_6.rect t)).set ↔ _
  rw [View.set_slice_whole, Rect.mem_set_unit]
  exact Iff.rfl

/-- Every index of the result array lies in some point's block. -/
theorem covered (i : S2x8x32x32x1152.Idx) : ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 32 := (i 2).isLt
  have hi3 : (i 3).val < 32 := (i 3).isLt
  have hi4 : (i 4).val < 1152 := (i 4).isLt
  obtain ⟨t, ht⟩ := idx_onto ⟨(i 0).val, hi0⟩ ⟨(i 1).val / 4, by omega⟩ ⟨(i 2).val / 4, by omega⟩ ⟨(i 3).val / 16, by omega⟩
  have q0 : win0_6.index t (0 : Fin 5) = (i 0).val := congrFun ht 0
  have q1 : win0_6.index t (1 : Fin 5) = (i 1).val / 4 := congrFun ht 1
  have q2 : win0_6.index t (2 : Fin 5) = (i 2).val / 4 := congrFun ht 2
  have q3 : win0_6.index t (3 : Fin 5) = (i 3).val / 16 := congrFun ht 3
  have q4 : win0_6.index t (4 : Fin 5) = 0 := congrFun ht 4
  refine ⟨t, flush0_6 t, ?_⟩
  rw [mem_blk]
  intro a
  match a with
  | ⟨0, _⟩ => show win0_6.index t (0 : Fin 5) * 1 ≤ (i 0).val ∧ (i 0).val < win0_6.index t (0 : Fin 5) * 1 + 1; omega
  | ⟨1, _⟩ => show win0_6.index t (1 : Fin 5) * 4 ≤ (i 1).val ∧ (i 1).val < win0_6.index t (1 : Fin 5) * 4 + 4; omega
  | ⟨2, _⟩ => show win0_6.index t (2 : Fin 5) * 4 ≤ (i 2).val ∧ (i 2).val < win0_6.index t (2 : Fin 5) * 4 + 4; omega
  | ⟨3, _⟩ => show win0_6.index t (3 : Fin 5) * 16 ≤ (i 3).val ∧ (i 3).val < win0_6.index t (3 : Fin 5) * 16 + 16; omega
  | ⟨4, _⟩ => show win0_6.index t (4 : Fin 5) * 1152 ≤ (i 4).val ∧ (i 4).val < win0_6.index t (4 : Fin 5) * 1152 + 1152; omega

end Cert.KernelIdeal.Attn

end
-- ==== Proof.KStages.lean ====
/- Two steps of one window of the kernel, read at an index.

   The 64 x 3456 projection of a window holds, per token, three parts of 16 heads of 72 features side by side; one part
   seen head by head is `[head, token, feature]`, column `offset + head * 72 + feature` of the token's row. Scaling
   every row of 72 features by the reciprocal root of its mean square (plus a small constant) multiplies each entry by
   one number per (head, token). -/
import proofs.«104549_j17987323036091_2_alg».proof.Proof.Gen.KernelIdeal.Skeleton
import proofs.«104549_j17987323036091_2_alg».proof.Proof.AttnSpec
import Idealize.ShloMosaic.Lib.Pipeline.Value
import Idealize.ShloMosaic.Lib.ValueIdx
import Idealize.ShloMosaic.PureOps.Ideal.Laws

noncomputable section

open scoped BigOperators

namespace Cert.KernelIdeal.Attn

open Cert.KernelIdeal Cert.KernelIdeal.Gen Idealize.ShloMosaic Idealize.ShloMosaic.ValueIdx

variable {F : FTy → Type} [FloatOps F]

/-- The 16 heads of one part of a window's projection: columns `off 1 + h * 72 + d` of row `n`, as `[h, n, d]`. -/
def headsAt (off : Fin 2 → Nat) (hs : S64x3456.Slices off S64x1152) (v : FVec F S64x3456 .f32) : FVec F S16x64x72 .f32 :=
  transpose S16x64x72 [1, 0, 2] (shapeCast S64x16x72 (extractStridedSlice S64x1152 off v hs) shapeCasts_S64x1152_S64x16x72) transposes_S64x16x72_p1_0_2_S16x64x72

theorem headsAt_apply (off : Fin 2 → Nat) (hs : S64x3456.Slices off S64x1152) (v : FVec F S64x3456 .f32)
    (h : Fin 16) (n : Fin 64) (d : Fin 72) (o : Fin 3456) (h0 : off 0 = 0) (ho : o.val = off 1 + h.val * 72 + d.val) :
    headsAt off hs v (ix3 h n d) = v (ix2 n o) := by
  unfold headsAt
  rw [transpose_apply [1, 0, 2] _ transposes_S64x16x72_p1_0_2_S16x64x72 (ix3 h n d) (ix3 n h d)
    (fun b => match b with | ⟨0, _⟩ => rfl | ⟨1, _⟩ => rfl | ⟨2, _⟩ => rfl)]
  have hc : h.val * 72 + d.val < 1152 := by have := h.isLt; have := d.isLt; omega
  rw [shapeCast_apply _ shapeCasts_S64x1152_S64x16x72 (ix3 n h d) (ix2 n (⟨h.val * 72 + d.val, hc⟩ : Fin 1152))
    (by rw [Shape.rowMajor_val_two, Shape.rowMajor_val_three]
        show n.val * 1152 + (h.val * 72 + d.val) = (n.val * 16 + h.val) * 72 + d.val; omega)]
  exact extractStridedSlice_apply off v hs _ (ix2 n o) (fun a => match a with
    | ⟨0, _⟩ => by show n.val = off 0 + n.val; omega
    | ⟨1, _⟩ => by show o.val = off 1 + (h.val * 72 + d.val); omega)

/-- Every row of 72 features times the reciprocal root of (its mean square plus a small constant). -/
def rmsScale (v : FVec F S16x64x72 .f32) : FVec F S16x64x72 .f32 :=
  mulf v (broadcastTo S16x64x72 (rsqrt (addf (divf (shapeCast S16x64x1 (multiReduction .add [2] S16x64 (mulf v v) 0x00000000#32 reduces_S16x64x72_S16x64 (.inl rfl) rfl) shapeCasts_S16x64_S16x64x1) (broadcast S16x64x1 (Scalar.ofBits .f32 0x42900000#32))) (broadcast S16x64x1 (Scalar.ofBits .f32 0x358637BD#32)))) broadcasts_S16x64x1_S16x64x72)

/-- A keepdims row sum read at `(h, n, 0)`: the sum over the 72 features of row `(h, n)`. -/
theorem rowSum72_apply (u : FVec Ideal S16x64x72 .f32) (h : Fin 16) (n : Fin 64) :
    shapeCast S16x64x1 (multiReduction .add [2] S16x64 u 0x00000000#32 reduces_S16x64x72_S16x64 (.inl rfl) rfl) shapeCasts_S16x64_S16x64x1 (ix3 h n (0 : Fin 1))
      = ∑ d : Fin 72, u (ix3 h n d) := by
  rw [shapeCast_apply _ shapeCasts_S16x64_S16x64x1 (ix3 h n (0 : Fin 1)) (ix2 h n)
    (by rw [Shape.rowMajor_val_two, Shape.rowMajor_val_three]
        show h.val * 64 + n.val = (h.val * 64 + n.val) * 1 + 0; omega)]
  refine (Ideal.multiReduction_add_single u 0x00000000#32 reduces_S16x64x72_S16x64 (.inl rfl) rfl (ix2 h n)).trans ?_
  show ∑ k : Fin 72, _ = _
  exact Finset.sum_congr rfl fun k _ => congrArg u (funext fun a => Fin.ext (match a with
    | ⟨0, _⟩ => rfl | ⟨1, _⟩ => rfl | ⟨2, _⟩ => rfl))

theorem rmsScale_apply (v : FVec Ideal S16x64x72 .f32) (h : Fin 16) (n : Fin 64) (d : Fin 72) :
    rmsScale v (ix3 h n d) = v (ix3 h n d) * Cert.AttnSpec.rinv (fun d' => v (ix3 h n d')) := by
  unfold rmsScale
  rw [mulf_apply]
  refine congrArg (v (ix3 h n d) * ·) ?_
  rw [broadcastTo_apply _ broadcasts_S16x64x1_S16x64x72 (ix3 h n d) (ix3 h n (0 : Fin 1))
    (fun a => match a with | ⟨0, _⟩ => rfl | ⟨1, _⟩ => rfl | ⟨2, _⟩ => rfl)]
  unfold Cert.AttnSpec.rinv
  show Ideal.rsqrt (Ideal.div (shapeCast S16x64x1 _ shapeCasts_S16x64_S16x64x1 (ix3 h n (0 : Fin 1))) _ + _) = _
  rw [rowSum72_apply]
  rfl

end Cert.KernelIdeal.Attn

end
-- ==== Proof.KDots.lean ====
import proofs.«104549_j17987323036091_2_alg».proof.Proof.Gen.KernelIdeal.Skeleton
import proofs.«104549_j17987323036091_2_alg».proof.Proof.AttnSpec
import Idealize.ShloMosaic.Lib.Pipeline.Value
import Idealize.ShloMosaic.Lib.ValueIdx
import Idealize.ShloMosaic.PureOps.Ideal.Laws

noncomputable section

open scoped BigOperators

namespace Cert.KernelIdeal.Attn

open Cert.KernelIdeal Cert.KernelIdeal.Gen Idealize.ShloMosaic Idealize.ShloMosaic.ValueIdx

variable {F : FTy → Type} [FloatOps F]

/-! ## The kernel's four matrix products, read at an index

Each is accumulated into zero, so at an output index it is the plain sum over the one contracted axis of the
products of the operands' entries: the first projection contracts the channels, the scores contract the
features (per head), the weighted values contract the keys (per head), the last projection the channels. -/

abbrev Dqkv := dot_S256x1152_S1152x3456_S256x3456_1_0_0_1_n_n
abbrev DqkvO := S256x3456
abbrev Dqk := dot_S16x64x72_S16x64x72_S16x64x64_2_2_1_1_0_0
abbrev DqkO := S16x64x64
abbrev Dpv := dot_S16x64x64_S16x64x72_S16x64x72_2_1_1_2_0_0
abbrev DpvO := S16x64x72
abbrev Dproj := dot_S256x1152_S1152x1152_S256x1152_1_0_0_1_n_n
abbrev DprojO := S256x1152

theorem Dqkv_l_0 (i : DqkvO.Idx) (q : Dqkv.contr.Idx) : (Dqkv.lhsIdx i q 0).val = (i 0).val := by
  unfold DotDims.lhsIdx
  rw [dif_neg (show ¬(0 : Fin S256x1152.rank) ∈ Dqkv.lhsBatch by decide), dif_pos (show (0 : Fin S256x1152.rank) ∈ Dqkv.lhsNonContracting by decide)]
  rfl
theorem Dqkv_l_1 (i : DqkvO.Idx) (q : Dqkv.contr.Idx) : (Dqkv.lhsIdx i q 1).val = (q ⟨0, by decide⟩).val :=
  Dqkv.lhsIdx_val_of_single rfl i q
theorem Dqkv_r_0 (i : DqkvO.Idx) (q : Dqkv.contr.Idx) : (Dqkv.rhsIdx i q 0).val = (q ⟨0, by decide⟩).val :=
  Dqkv.rhsIdx_val_of_single rfl i q
theorem Dqkv_r_1 (i : DqkvO.Idx) (q : Dqkv.contr.Idx) : (Dqkv.rhsIdx i q 1).val = (i 1).val := by
  unfold DotDims.rhsIdx
  rw [dif_neg (show ¬(1 : Fin S1152x3456.rank) ∈ Dqkv.rhsBatch by decide), dif_pos (show (1 : Fin S1152x3456.rank) ∈ Dqkv.rhsNonContracting by decide)]
  rfl
theorem Dproj_l_0 (i : DprojO.Idx) (q : Dproj.contr.Idx) : (Dproj.lhsIdx i q 0).val = (i 0).val := by
  unfold DotDims.lhsIdx
  rw [dif_neg (show ¬(0 : Fin S256x1152.rank) ∈ Dproj.lhsBatch by decide), dif_pos (show (0 : Fin S256x1152.rank) ∈ Dproj.lhsNonContracting by decide)]
  rfl
theorem Dproj_l_1 (i : DprojO.Idx) (q : Dproj.contr.Idx) : (Dproj.lhsIdx i q 1).val = (q ⟨0, by decide⟩).val :=
  Dproj.lhsIdx_val_of_single rfl i q
theorem Dproj_r_0 (i : DprojO.Idx) (q : Dproj.contr.Idx) : (Dproj.rhsIdx i q 0).val = (q ⟨0, by decide⟩).val :=
  Dproj.rhsIdx_val_of_single rfl i q
theorem Dproj_r_1 (i : DprojO.Idx) (q : Dproj.contr.Idx) : (Dproj.rhsIdx i q 1).val = (i 1).val := by
  unfold DotDims.rhsIdx
  rw [dif_neg (show ¬(1 : Fin S1152x1152.rank) ∈ Dproj.rhsBatch by decide), dif_pos (show (1 : Fin S1152x1152.rank) ∈ Dproj.rhsNonContracting by decide)]
  rfl
theorem Dqk_l_0 (i : DqkO.Idx) (q : Dqk.contr.Idx) : (Dqk.lhsIdx i q 0).val = (i 0).val := by
  unfold DotDims.lhsIdx
  rw [dif_pos (show (0 : Fin S16x64x72.rank) ∈ Dqk.lhsBatch by decide)]
  rfl
theorem Dqk_l_1 (i : DqkO.Idx) (q : Dqk.contr.Idx) : (Dqk.lhsIdx i q 1).val = (i 1).val := by
  unfold DotDims.lhsIdx
  rw [dif_neg (show ¬(1 : Fin S16x64x72.rank) ∈ Dqk.lhsBatch by decide), dif_pos (show (1 : Fin S16x64x72.rank) ∈ Dqk.lhsNonContracting by decide)]
  rfl
theorem Dqk_l_2 (i : DqkO.Idx) (q : Dqk.contr.Idx) : (Dqk.lhsIdx i q 2).val = (q ⟨0, by decide⟩).val :=
  Dqk.lhsIdx_val_of_single rfl i q
theorem Dqk_r_0 (i : DqkO.Idx) (q : Dqk.contr.Idx) : (Dqk.rhsIdx i q 0).val = (i 0).val := by
  unfold DotDims.rhsIdx
  rw [dif_pos (show (0 : Fin S16x64x72.rank) ∈ Dqk.rhsBatch by decide)]
  rfl
theorem Dqk_r_1 (i : DqkO.Idx) (q : Dqk.contr.Idx) : (Dqk.rhsIdx i q 1).val = (i 2).val := by
  unfold DotDims.rhsIdx
  rw [dif_neg (show ¬(1 : Fin S16x64x72.rank) ∈ Dqk.rhsBatch by decide), dif_pos (show (1 : Fin S16x64x72.rank) ∈ Dqk.rhsNonContracting by decide)]
  rfl
theorem Dqk_r_2 (i : DqkO.Idx) (q : Dqk.contr.Idx) : (Dqk.rhsIdx i q 2).val = (q ⟨0, by decide⟩).val :=
  Dqk.rhsIdx_val_of_single rfl i q
theorem Dpv_l_0 (i : DpvO.Idx) (q : Dpv.contr.Idx) : (Dpv.lhsIdx i q 0).val = (i 0).val := by
  unfold DotDims.lhsIdx
  rw [dif_pos (show (0 : Fin S16x64x64.rank) ∈ Dpv.lhsBatch by decide)]
  rfl
theorem Dpv_l_1 (i : DpvO.Idx) (q : Dpv.contr.Idx) : (Dpv.lhsIdx i q 1).val = (i 1).val := by
  unfold DotDims.lhsIdx
  rw [dif_neg (show ¬(1 : Fin S16x64x64.rank) ∈ Dpv.lhsBatch by decide), dif_pos (show (1 : Fin S16x64x64.rank) ∈ Dpv.lhsNonContracting by decide)]
  rfl
theorem Dpv_l_2 (i : DpvO.Idx) (q : Dpv.contr.Idx) : (Dpv.lhsIdx i q 2).val = (q ⟨0, by decide⟩).val :=
  Dpv.lhsIdx_val_of_single rfl i q
theorem Dpv_r_0 (i : DpvO.Idx) (q : Dpv.contr.Idx) : (Dpv.rhsIdx i q 0).val = (i 0).val := by
  unfold DotDims.rhsIdx
  rw [dif_pos (show (0 : Fin S16x64x72.rank) ∈ Dpv.rhsBatch by decide)]
  rfl
theorem Dpv_r_1 (i : DpvO.Idx) (q : Dpv.contr.Idx) : (Dpv.rhsIdx i q 1).val = (q ⟨0, by decide⟩).val :=
  Dpv.rhsIdx_val_of_single rfl i q
theorem Dpv_r_2 (i : DpvO.Idx) (q : Dpv.contr.Idx) : (Dpv.rhsIdx i q 2).val = (i 2).val := by
  unfold DotDims.rhsIdx
  rw [dif_neg (show ¬(2 : Fin S16x64x72.rank) ∈ Dpv.rhsBatch by decide), dif_pos (show (2 : Fin S16x64x72.rank) ∈ Dpv.rhsNonContracting by decide)]
  rfl

/-- Rows times columns, for the first projection: the sum over the 1152 channels. -/
theorem qkv_apply (l : FVec Ideal S256x1152 .bf16) (r : FVec Ideal S1152x3456 .bf16) (i : Fin 256) (j : Fin 3456) :
    matmul Dqkv none l r (constant S256x3456 .f32 0x00000000#32) (ix2 i j) = ∑ k : Fin 1152, l (ix2 i k) * r (ix2 k j) := by
  simp only [matmul]
  rw [Ideal.matmul_constant_zero_apply, ← Equiv.sum_comp (contrEquiv1 Dqkv 1152 rfl rfl).symm]
  refine Finset.sum_congr rfl fun k _ => ?_
  have hk := contrEquiv1_symm_val Dqkv 1152 rfl rfl k
  have el : Dqkv.lhsIdx (ix2 i j) ((contrEquiv1 Dqkv 1152 rfl rfl).symm k) = ix2 i k := funext fun a => Fin.ext (by
    match a with
    | ⟨0, _⟩ => exact Dqkv_l_0 _ _
    | ⟨1, _⟩ => exact (Dqkv_l_1 _ _).trans hk)
  have er : Dqkv.rhsIdx (ix2 i j) ((contrEquiv1 Dqkv 1152 rfl rfl).symm k) = ix2 k j := funext fun a => Fin.ext (by
    match a with
    | ⟨0, _⟩ => exact (Dqkv_r_0 _ _).trans hk
    | ⟨1, _⟩ => exact Dqkv_r_1 _ _)
  rw [el, er]

/-- Rows times columns, for the last projection: the sum over the 1152 channels. -/
theorem proj_apply (l : FVec Ideal S256x1152 .bf16) (r : FVec Ideal S1152x1152 .bf16) (i : Fin 256) (j : Fin 1152) :
    matmul Dproj none l r (constant S256x1152 .f32 0x00000000#32) (ix2 i j) = ∑ k : Fin 1152, l (ix2 i k) * r (ix2 k j) := by
  simp only [matmul]
  rw [Ideal.matmul_constant_zero_apply, ← Equiv.sum_comp (contrEquiv1 Dproj 1152 rfl rfl).symm]
  refine Finset.sum_congr rfl fun k _ => ?_
  have hk := contrEquiv1_symm_val Dproj 1152 rfl rfl k
  have el : Dproj.lhsIdx (ix2 i j) ((contrEquiv1 Dproj 1152 rfl rfl).symm k) = ix2 i k := funext fun a => Fin.ext (by
    match a with
    | ⟨0, _⟩ => exact Dproj_l_0 _ _
    | ⟨1, _⟩ => exact (Dproj_l_1 _ _).trans hk)
  have er : Dproj.rhsIdx (ix2 i j) ((contrEquiv1 Dproj 1152 rfl rfl).symm k) = ix2 k j := funext fun a => Fin.ext (by
    match a with
    | ⟨0, _⟩ => exact (Dproj_r_0 _ _).trans hk
    | ⟨1, _⟩ => exact Dproj_r_1 _ _)
  rw [el, er]

/-- Per head, queries against keys: the sum over the 72 features. -/
theorem qk_apply (l r : FVec Ideal S16x64x72 .bf16) (h : Fin 16) (q k : Fin 64) :
    matmul Dqk none l r (constant S16x64x64 .f32 0x00000000#32) (ix3 h q k) = ∑ d : Fin 72, l (ix3 h q d) * r (ix3 h k d) := by
  simp only [matmul]
  rw [Ideal.matmul_constant_zero_apply, ← Equiv.sum_comp (contrEquiv1 Dqk 72 rfl rfl).symm]
  refine Finset.sum_congr rfl fun d _ => ?_
  have hk := contrEquiv1_symm_val Dqk 72 rfl rfl d
  have el : Dqk.lhsIdx (ix3 h q k) ((contrEquiv1 Dqk 72 rfl rfl).symm d) = ix3 h q d := funext fun a => Fin.ext (by
    match a with
    | ⟨0, _⟩ => exact Dqk_l_0 _ _
    | ⟨1, _⟩ => exact Dqk_l_1 _ _
    | ⟨2, _⟩ => exact (Dqk_l_2 _ _).trans hk)
  have er : Dqk.rhsIdx (ix3 h q k) ((contrEquiv1 Dqk 72 rfl rfl).symm d) = ix3 h k d := funext fun a => Fin.ext (by
    match a with
    | ⟨0, _⟩ => exact Dqk_r_0 _ _
    | ⟨1, _⟩ => exact Dqk_r_1 _ _
    | ⟨2, _⟩ => exact (Dqk_r_2 _ _).trans hk)
  rw [el, er]

/-- Per head, weights against values: the sum over the 64 keys. -/
theorem pv_apply (l : FVec Ideal S16x64x64 .bf16) (r : FVec Ideal S16x64x72 .bf16) (h : Fin 16) (q : Fin 64) (d : Fin 72) :
    matmul Dpv none l r (constant S16x64x72 .f32 0x00000000#32) (ix3 h q d) = ∑ k : Fin 64, l (ix3 h q k) * r (ix3 h k d) := by
  simp only [matmul]
  rw [Ideal.matmul_constant_zero_apply, ← Equiv.sum_comp (contrEquiv1 Dpv 64 rfl rfl).symm]
  refine Finset.sum_congr rfl fun k _ => ?_
  have hk := contrEquiv1_symm_val Dpv 64 rfl rfl k
  have el : Dpv.lhsIdx (ix3 h q d) ((contrEquiv1 Dpv 64 rfl rfl).symm k) = ix3 h q k := funext fun a => Fin.ext (by
    match a with
    | ⟨0, _⟩ => exact Dpv_l_0 _ _
    | ⟨1, _⟩ => exact Dpv_l_1 _ _
    | ⟨2, _⟩ => exact (Dpv_l_2 _ _).trans hk)
  have er : Dpv.rhsIdx (ix3 h q d) ((contrEquiv1 Dpv 64 rfl rfl).symm k) = ix3 h k d := funext fun a => Fin.ext (by
    match a with
    | ⟨0, _⟩ => exact Dpv_r_0 _ _
    | ⟨1, _⟩ => exact (Dpv_r_1 _ _).trans hk
    | ⟨2, _⟩ => exact Dpv_r_2 _ _)
  rw [el, er]

end Cert.KernelIdeal.Attn

end
-- ==== Proof.KSoftmax.lean ====
import proofs.«104549_j17987323036091_2_alg».proof.Proof.Gen.KernelIdeal.Skeleton
import proofs.«104549_j17987323036091_2_alg».proof.Proof.AttnSpec
import Idealize.ShloMosaic.Lib.Pipeline.Value
import Idealize.ShloMosaic.Lib.ValueIdx
import Idealize.ShloMosaic.PureOps.Ideal.Laws

noncomputable section

open scoped BigOperators

namespace Cert.KernelIdeal.Attn

open Cert.KernelIdeal Cert.KernelIdeal.Gen Idealize.ShloMosaic Idealize.ShloMosaic.ValueIdx

variable {F : FTy → Type} [FloatOps F]

/-! ## The softmax over the keys, as the kernel computes it

The largest score of a row (the maximum starts at minus infinity and is compared with it once more), the
exponentials of the scores less that maximum, and each exponential divided by the row's sum of them. -/

/-- The row maxima, kept as a column. -/
def rowMax (s : FVec F S16x64x64 .f32) : FVec F S16x64x1 .f32 :=
  shapeCast S16x64x1 (maximumf (broadcast S16x64 (Scalar.ofBits .f32 0xFF800000#32)) (multiReduction .maximumf [2] S16x64 s 0xFF800000#32 reduces_S16x64x64_S16x64 (.inl rfl) rfl)) shapeCasts_S16x64_S16x64x1

/-- The exponentials of the scores less their row's maximum. -/
def expShift (s : FVec F S16x64x64 .f32) : FVec F S16x64x64 .f32 :=
  exp (subf s (broadcastTo S16x64x64 (rowMax s) broadcasts_S16x64x1_S16x64x64))

/-- The softmax weights. -/
def softmaxK (s : FVec F S16x64x64 .f32) : FVec F S16x64x64 .f32 :=
  divf (expShift s) (broadcastTo S16x64x64 (shapeCast S16x64x1 (multiReduction .add [2] S16x64 (expShift s) 0x00000000#32 reduces_S16x64x64_S16x64 (.inl rfl) rfl) shapeCasts_S16x64_S16x64x1) broadcasts_S16x64x1_S16x64x64)

theorem rowMax_apply (s : FVec Ideal S16x64x64 .f32) (h : Fin 16) (q : Fin 64) :
    rowMax s (ix3 h q (0 : Fin 1))
      = max (Ideal.ofBits FTy.f32 0xFF800000#32) (Finset.univ.fold max (Ideal.ofBits FTy.f32 0xFF800000#32) (fun k : Fin 64 => s (ix3 h q k))) := by
  unfold rowMax
  rw [shapeCast_apply _ shapeCasts_S16x64_S16x64x1 (ix3 h q (0 : Fin 1)) (ix2 h q)
    (by rw [Shape.rowMajor_val_two, Shape.rowMajor_val_three]
        show h.val * 64 + q.val = (h.val * 64 + q.val) * 1 + 0; omega)]
  rw [maximumf_apply]
  refine congrArg (max (Ideal.ofBits FTy.f32 0xFF800000#32) ·) ?_
  refine (Ideal.multiReduction_maximumf_single s 0xFF800000#32 reduces_S16x64x64_S16x64 (.inl rfl) rfl (ix2 h q)).trans ?_
  show (Finset.univ : Finset (Fin 64)).fold max _ _ = _
  exact congrArg ((Finset.univ : Finset (Fin 64)).fold max (Ideal.ofBits FTy.f32 0xFF800000#32)) (funext fun k => congrArg s (funext fun a => Fin.ext (match a with
    | ⟨0, _⟩ => rfl | ⟨1, _⟩ => rfl | ⟨2, _⟩ => rfl)))

theorem expShift_apply (s : FVec Ideal S16x64x64 .f32) (h : Fin 16) (q k : Fin 64) :
    expShift s (ix3 h q k) = Ideal.exp (s (ix3 h q k) - rowMax s (ix3 h q (0 : Fin 1))) := by
  unfold expShift
  show Ideal.exp (s (ix3 h q k) - broadcastTo S16x64x64 (rowMax s) broadcasts_S16x64x1_S16x64x64 (ix3 h q k)) = _
  rw [broadcastTo_apply _ broadcasts_S16x64x1_S16x64x64 (ix3 h q k) (ix3 h q (0 : Fin 1))
    (fun a => match a with | ⟨0, _⟩ => rfl | ⟨1, _⟩ => rfl | ⟨2, _⟩ => rfl)]

/-- A keepdims row sum over the 64 keys, read at `(h, q, 0)`. -/
theorem rowSum64_apply (u : FVec Ideal S16x64x64 .f32) (h : Fin 16) (q : Fin 64) :
    shapeCast S16x64x1 (multiReduction .add [2] S16x64 u 0x00000000#32 reduces_S16x64x64_S16x64 (.inl rfl) rfl) shapeCasts_S16x64_S16x64x1 (ix3 h q (0 : Fin 1))
      = ∑ k : Fin 64, u (ix3 h q k) := by
  rw [shapeCast_apply _ shapeCasts_S16x64_S16x64x1 (ix3 h q (0 : Fin 1)) (ix2 h q)
    (by rw [Shape.rowMajor_val_two, Shape.rowMajor_val_three]
        show h.val * 64 + q.val = (h.val * 64 + q.val) * 1 + 0; omega)]
  refine (Ideal.multiReduction_add_single u 0x00000000#32 reduces_S16x64x64_S16x64 (.inl rfl) rfl (ix2 h q)).trans ?_
  show ∑ k : Fin 64, _ = _
  exact Finset.sum_congr rfl fun k _ => congrArg u (funext fun a => Fin.ext (match a with
    | ⟨0, _⟩ => rfl | ⟨1, _⟩ => rfl | ⟨2, _⟩ => rfl))

theorem softmaxK_apply (s : FVec Ideal S16x64x64 .f32) (h : Fin 16) (q k : Fin 64) :
    softmaxK s (ix3 h q k) = Ideal.div (expShift s (ix3 h q k)) (∑ k' : Fin 64, expShift s (ix3 h q k')) := by
  unfold softmaxK
  rw [divf_apply]
  refine congrArg (Ideal.div (expShift s (ix3 h q k)) ·) ?_
  rw [broadcastTo_apply _ broadcasts_S16x64x1_S16x64x64 (ix3 h q k) (ix3 h q (0 : Fin 1))
    (fun a => match a with | ⟨0, _⟩ => rfl | ⟨1, _⟩ => rfl | ⟨2, _⟩ => rfl)]
  exact rowSum64_apply (expShift s) h q

end Cert.KernelIdeal.Attn

end
-- ==== Proof.KAttn.lean ====
import proofs.«104549_j17987323036091_2_alg».proof.Proof.Gen.KernelIdeal.Skeleton
import proofs.«104549_j17987323036091_2_alg».proof.Proof.AttnSpec
import proofs.«104549_j17987323036091_2_alg».proof.Proof.KStages
import proofs.«104549_j17987323036091_2_alg».proof.Proof.KDots
import proofs.«104549_j17987323036091_2_alg».proof.Proof.KSoftmax
import Idealize.ShloMosaic.Lib.Pipeline.Value
import Idealize.ShloMosaic.Lib.ValueIdx
import Idealize.ShloMosaic.PureOps.Ideal.Laws

noncomputable section

open scoped BigOperators

namespace Cert.KernelIdeal.Attn

open Cert.KernelIdeal Cert.KernelIdeal.Gen Idealize.ShloMosaic Idealize.ShloMosaic.ValueIdx Cert.AttnSpec

variable {F : FTy → Type} [FloatOps F]

/-! ## One window of the kernel

From the 64 rows of the first projection that belong to one window, and the two weight rows, the kernel
computes that window's heads laid side by side — the value it parks in its scratch rows. -/

/-- One window's attention, as the kernel's operations. -/
def attnK (v17 v20 : FVec F S1x1x72 .f32) (w : FVec F S64x3456 .f32) : FVec F S64x1152 .f32 :=
  shapeCast S64x1152 (shapeCast S64x1152 (transpose S64x16x72 [1, 0, 2]
    (matmul Dpv none
      (truncf .bf16 (softmaxK (matmul Dqk none
          (truncf .bf16 (mulf (mulf (rmsScale (headsAt ![0, 0] slices_S64x3456_o0_0_S64x1152 w)) (broadcastTo S16x64x72 v17 broadcasts_S1x1x72_S16x64x72)) (broadcast S16x64x72 (Scalar.ofBits .f32 0x3DF15BEF#32))) bitsLt_bf16_f32)
          (truncf .bf16 (mulf (rmsScale (headsAt ![0, 1152] slices_S64x3456_o0_1152_S64x1152 w)) (broadcastTo S16x64x72 v20 broadcasts_S1x1x72_S16x64x72)) bitsLt_bf16_f32)
          (constant S16x64x64 .f32 0x00000000#32))) bitsLt_bf16_f32)
      (truncf .bf16 (headsAt ![0, 2304] slices_S64x3456_o0_2304_S64x1152 w) bitsLt_bf16_f32)
      (constant S16x64x72 .f32 0x00000000#32))
    transposes_S16x64x72_p1_0_2_S64x16x72) shapeCasts_S64x16x72_S64x1152) shapeCasts_S64x1152_S64x1152

section Apply

variable (X : Fin 64 → Fin 1152 → EReal) (W : Fin 3456 → Fin 1152 → EReal) (qw kw : Fin 72 → EReal)
variable (v17 v20 : FVec Ideal S1x1x72 .f32) (w : FVec Ideal S64x3456 .f32)
variable (hq : ∀ d : Fin 72, v17 (ix3 (0 : Fin 1) (0 : Fin 1) d) = qw d) (hk : ∀ d : Fin 72, v20 (ix3 (0 : Fin 1) (0 : Fin 1) d) = kw d)
variable (hw : ∀ (n : Fin 64) (o : Fin 3456), w (ix2 n o) = proj X W n o)

include hw in
/-- Part `p` of the window's projection, head by head. -/
theorem part_apply (p : Fin 3) (off : Fin 2 → Nat) (hs : S64x3456.Slices off S64x1152) (h0 : off 0 = 0) (h1 : off 1 = p.val * 1152)
    (h : Fin 16) (n : Fin 64) (d : Fin 72) : headsAt off hs w (ix3 h n d) = part X W p h n d := by
  rw [headsAt_apply off hs w h n d (col p h d) h0 (by show p.val * 1152 + h.val * 72 + d.val = _; omega), hw]
  rfl

include hw in
theorem rms_part_apply (p : Fin 3) (off : Fin 2 → Nat) (hs : S64x3456.Slices off S64x1152) (h0 : off 0 = 0) (h1 : off 1 = p.val * 1152)
    (h : Fin 16) (n : Fin 64) (d : Fin 72) :
    rmsScale (headsAt off hs w) (ix3 h n d) = part X W p h n d * rinv (part X W p h n) := by
  rw [rmsScale_apply, part_apply X W w hw p off hs h0 h1]
  exact congrArg (part X W p h n d * rinv ·) (funext fun d' => part_apply X W w hw p off hs h0 h1 h n d')

include hq hw in
/-- The kernel's normalised, weighted and scaled queries are the specification's. -/
theorem qn_apply (h : Fin 16) (n : Fin 64) (d : Fin 72) :
    (mulf (mulf (rmsScale (headsAt ![0, 0] slices_S64x3456_o0_0_S64x1152 w)) (broadcastTo S16x64x72 v17 broadcasts_S1x1x72_S16x64x72)) (broadcast S16x64x72 (Scalar.ofBits .f32 0x3DF15BEF#32))) (ix3 h n d)
      = qn X W qw h n d := by
  rw [mulf_apply, mulf_apply, rms_part_apply X W w hw 0 ![0, 0] slices_S64x3456_o0_0_S64x1152 rfl rfl,
    broadcastTo_apply _ broadcasts_S1x1x72_S16x64x72 (ix3 h n d) (ix3 (0 : Fin 1) (0 : Fin 1) d)
      (fun a => match a with | ⟨0, _⟩ => rfl | ⟨1, _⟩ => rfl | ⟨2, _⟩ => rfl), hq]
  rfl

include hk hw in
/-- The kernel's normalised and weighted keys are the specification's. -/
theorem kn_apply (h : Fin 16) (n : Fin 64) (d : Fin 72) :
    (mulf (rmsScale (headsAt ![0, 1152] slices_S64x3456_o0_1152_S64x1152 w)) (broadcastTo S16x64x72 v20 broadcasts_S1x1x72_S16x64x72)) (ix3 h n d)
      = kn X W kw h n d := by
  rw [mulf_apply, rms_part_apply X W w hw 1 ![0, 1152] slices_S64x3456_o0_1152_S64x1152 rfl rfl,
    broadcastTo_apply _ broadcasts_S1x1x72_S16x64x72 (ix3 h n d) (ix3 (0 : Fin 1) (0 : Fin 1) d)
      (fun a => match a with | ⟨0, _⟩ => rfl | ⟨1, _⟩ => rfl | ⟨2, _⟩ => rfl), hk]
  rfl

/-- The kernel's scores of one window. -/
def scoresK (v17 v20 : FVec F S1x1x72 .f32) (w : FVec F S64x3456 .f32) : FVec F S16x64x64 .f32 :=
  matmul Dqk none
    (truncf .bf16 (mulf (mulf (rmsScale (headsAt ![0, 0] slices_S64x3456_o0_0_S64x1152 w)) (broadcastTo S16x64x72 v17 broadcasts_S1x1x72_S16x64x72)) (broadcast S16x64x72 (Scalar.ofBits .f32 0x3DF15BEF#32))) bitsLt_bf16_f32)
    (truncf .bf16 (mulf (rmsScale (headsAt ![0, 1152] slices_S64x3456_o0_1152_S64x1152 w)) (broadcastTo S16x64x72 v20 broadcasts_S1x1x72_S16x64x72)) bitsLt_bf16_f32)
    (constant S16x64x64 .f32 0x00000000#32)

include hq hk hw in
theorem scoresK_apply (h : Fin 16) (q k : Fin 64) : scoresK v17 v20 w (ix3 h q k) = score X W qw kw h q k := by
  unfold scoresK
  rw [qk_apply]
  unfold score
  exact Finset.sum_congr rfl fun d _ => by
    rw [truncf_apply, truncf_apply, qn_apply X W qw v17 w hq hw, kn_apply X W kw v20 w hk hw]

include hq hk hw in
theorem rowMaxK_apply (h : Fin 16) (q : Fin 64) : rowMax (scoresK v17 v20 w) (ix3 h q (0 : Fin 1)) = smax X W qw kw h q := by
  rw [rowMax_apply]
  unfold smax
  exact congrArg (fun f => max (Ideal.ofBits FTy.f32 0xFF800000#32) (Finset.univ.fold max (Ideal.ofBits FTy.f32 0xFF800000#32) f))
    (funext fun k => scoresK_apply X W qw kw v17 v20 w hq hk hw h q k)

include hq hk hw in
theorem expShiftK_apply (h : Fin 16) (q k : Fin 64) : expShift (scoresK v17 v20 w) (ix3 h q k) = ex X W qw kw h q k := by
  rw [expShift_apply, scoresK_apply X W qw kw v17 v20 w hq hk hw, rowMaxK_apply X W qw kw v17 v20 w hq hk hw]
  rfl

include hq hk hw in
theorem softmaxKK_apply (h : Fin 16) (q k : Fin 64) : softmaxK (scoresK v17 v20 w) (ix3 h q k) = prob X W qw kw h q k := by
  rw [softmaxK_apply, expShiftK_apply X W qw kw v17 v20 w hq hk hw]
  unfold prob den
  exact congrArg (Ideal.div (ex X W qw kw h q k) ·) (Finset.sum_congr rfl fun k' _ => expShiftK_apply X W qw kw v17 v20 w hq hk hw h q k')

include hq hk hw in
/-- The window's heads side by side, as the kernel leaves them: the specification's. -/
theorem attnK_apply (n : Fin 64) (c : Fin 1152) : attnK v17 v20 w (ix2 n c) = heads X W qw kw n c := by
  unfold attnK
  rw [shapeCast_self]
  rw [shapeCast_apply _ shapeCasts_S64x16x72_S64x1152 (ix2 n c) (ix3 n (headOf c) (featOf c))
    (by rw [Shape.rowMajor_val_two, Shape.rowMajor_val_three]
        show (n.val * 16 + c.val / 72) * 72 + c.val % 72 = n.val * 1152 + c.val; omega)]
  rw [transpose_apply [1, 0, 2] _ transposes_S16x64x72_p1_0_2_S64x16x72 (ix3 n (headOf c) (featOf c)) (ix3 (headOf c) n (featOf c))
    (fun b => match b with | ⟨0, _⟩ => rfl | ⟨1, _⟩ => rfl | ⟨2, _⟩ => rfl)]
  rw [pv_apply]
  unfold heads att
  exact Finset.sum_congr rfl fun k _ => by
    rw [truncf_apply, truncf_apply]
    rw [part_apply X W w hw 2 ![0, 2304] slices_S64x3456_o0_2304_S64x1152 rfl rfl]
    exact congrArg (· * part X W 2 (headOf c) k (featOf c)) (softmaxKK_apply X W qw kw v17 v20 w hq hk hw (headOf c) n k)

end Apply

end Cert.KernelIdeal.Attn

end
-- ==== Proof.KBody.lean ====
import proofs.«104549_j17987323036091_2_alg».proof.Proof.Gen.KernelIdeal.Frame
import proofs.«104549_j17987323036091_2_alg».proof.Proof.AttnSpec
import proofs.«104549_j17987323036091_2_alg».proof.Proof.KAttn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Attn

open Idealize.ShloMosaic.TcCoe Idealize.ShloMosaic.Tactic Idealize.SL.Sem Cert.KernelIdeal Cert.KernelIdeal.Gen Idealize.ShloMosaic Idealize.ShloMosaic.ValueIdx Cert.AttnSpec

variable {F : FTy → Type} [FloatOps F]

/-! ## The four windows of a grid point

The kernel's first projection is one 256-row product; rows `64 * j … 64 * j + 63` are window `j`. Each
window's stored value is the one-window function of its 64 rows. -/

/-- Rows `64 * j …` of the 256-row projection. -/
abbrev rows0 (Q : FVec F S256x3456 .f32) : FVec F S64x3456 .f32 := extractStridedSlice S64x3456 ![0, 0] Q slices_S256x3456_o0_0_S64x3456
abbrev rows1 (Q : FVec F S256x3456 .f32) : FVec F S64x3456 .f32 := extractStridedSlice S64x3456 ![64, 0] Q slices_S256x3456_o64_0_S64x3456
abbrev rows2 (Q : FVec F S256x3456 .f32) : FVec F S64x3456 .f32 := extractStridedSlice S64x3456 ![128, 0] Q slices_S256x3456_o128_0_S64x3456
abbrev rows3 (Q : FVec F S256x3456 .f32) : FVec F S64x3456 .f32 := extractStridedSlice S64x3456 ![192, 0] Q slices_S256x3456_o192_0_S64x3456

theorem win0_eq (x0 : Vec F S1x4x4x16x1152 .f32) (x1 : Vec F S1152x3456 .bf16) (x4 x5 : Vec F S1x72 .f32) :
    k0_pay9 (k0_pay3 x4) (k0_pay4 x5) (k0_pay6 x0 x1) (k0_pay7 x0 x1) (k0_pay8 x0 x1)
      = attnK (k0_pay3 x4) (k0_pay4 x5) (rows0 (k0_pay2 x0 x1)) := rfl

theorem win1_eq (Q : FVec F S256x3456 .f32) (x4 x5 : Vec F S1x72 .f32) :
    k0_pay15 (k0_pay14 (k0_pay3 x4) (k0_pay4 x5) (k0_pay11 Q) (k0_pay12 Q) (k0_pay13 Q))
      = attnK (k0_pay3 x4) (k0_pay4 x5) (rows1 Q) := rfl

theorem win2_eq (Q : FVec F S256x3456 .f32) (x4 x5 : Vec F S1x72 .f32) :
    k0_pay19 (k0_pay17 Q) (k0_pay18 Q (k0_pay3 x4) (k0_pay4 x5))
      = attnK (k0_pay3 x4) (k0_pay4 x5) (rows2 Q) := rfl

theorem win3_eq (Q : FVec F S256x3456 .f32) (x4 x5 : Vec F S1x72 .f32) :
    k0_pay24 (k0_pay21 Q) (k0_pay22 Q (k0_pay4 x5)) (k0_pay23 Q (k0_pay3 x4))
      = attnK (k0_pay3 x4) (k0_pay4 x5) (rows3 Q) := rfl

/-! ## What a grid point leaves in its output block

The body parks the four windows' heads in a 256-row scratch (rows `64 * j …` hold window `j`), reads the
scratch back whole, projects it once more, adds the bias row and lays the four windows side by side again. -/

/-- A whole-buffer load after a list of stores reads, at every index, what the last store covering it left. -/
theorem readCov_whole {sig : RefSig} {κ : Kind} {sp : Space} {S : Shape} {e : EltTy} {Val : EltTy → Type} [∀ e, Nonempty (Val e)]
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  subst h
  rw [View.readCov_eq_canon']
  funext j
  show View.canon L ((Rect.whole S).emb j) = _
  rw [Rect.emb_whole_apply]

/-- The four stores into the scratch, last first. -/
def scratchPieces (x0 : Vec F S1x4x4x16x1152 .f32) (x1 : Vec F S1152x3456 .bf16) (x4 x5 : Vec F S1x72 .f32) :
    List (View.Piece (Elt F) S256x1152 .f32) :=
  [⟨Rect.unit ![192, 0] S64x1152.size inb_S256x1152_S64x1152_192_0, attnK (k0_pay3 x4) (k0_pay4 x5) (rows3 (k0_pay2 x0 x1))⟩,
   ⟨Rect.unit ![128, 0] S64x1152.size inb_S256x1152_S64x1152_128_0, attnK (k0_pay3 x4) (k0_pay4 x5) (rows2 (k0_pay2 x0 x1))⟩,
   ⟨Rect.unit ![64, 0] S64x1152.size inb_S256x1152_S64x1152_64_0, attnK (k0_pay3 x4) (k0_pay4 x5) (rows1 (k0_pay2 x0 x1))⟩,
   ⟨Rect.unit ![0, 0] S64x1152.size inb_S256x1152_S64x1152_0_0, attnK (k0_pay3 x4) (k0_pay4 x5) (rows0 (k0_pay2 x0 x1))⟩]

theorem out_eq (c : Dev nD) (i : grid0.Coords) (arg4 : Memref sig .tc .vmem S1x4x4x16x1152 .f32) (harg4 : arg4.IsWhole) (arg5 : Memref sig .tc .vmem S1152x3456 .bf16) (harg5 : arg5.IsWhole) (arg6 : Memref sig .tc .vmem S1152x1152 .bf16) (harg6 : arg6.IsWhole) (arg7 : Memref sig .tc .vmem S1x1152 .f32) (harg7 : arg7.IsWhole) (arg8 : Memref sig .tc .vmem S1x72 .f32) (harg8 : arg8.IsWhole) (arg9 : Memref sig .tc .vmem S1x72 .f32) (harg9 : arg9.IsWhole) (arg10 : Memref sig .tc .vmem S1x4x4x16x1152 .f32) (harg10 : arg10.IsWhole) (arg11 : Memref sig .tc .vmem S256x1152 .f32) (harg11 : arg11.IsWhole)
    (x0 : Vec F S1x4x4x16x1152 .f32) (x1 : Vec F S1152x3456 .bf16) (x2 : Vec F S1152x1152 .bf16) (x3 : Vec F S1x1152 .f32) (x4 : Vec F S1x72 .f32) (x5 : Vec F S1x72 .f32) :
    out0_A_6 c i arg4 harg4 arg5 harg5 arg6 harg6 arg7 harg7 arg8 harg8 arg9 harg9 arg10 harg10 arg11 harg11 x0 x1 x2 x3 x4 x5
      = k0_pay1 (k0_pay25 (View.canon (scratchPieces x0 x1 x4 x5)) x2 x3) := by
  unfold out0_A_6
  rw [View.read_writes_eq_canon _ _ _ (cover0_A_6 c i arg4 harg4 arg5 harg5 arg6 harg6 arg7 harg7 arg8 harg8 arg9 harg9 arg10 harg10 arg11 harg11 x0 x1 x2 x3 x4 x5)]
  unfold kernelRun0_A
  dsimp only
  sl_unfold_words
  have hz5 : (![0, 0, 0, 0, 0] : Fin 5 → Nat) = fun _ => 0 := by funext a; fin_cases a <;> rfl
  have hz2 : (![0, 0] : Fin 2 → Nat) = fun _ => 0 := by funext a; fin_cases a <;> rfl
  rw [View.canon_unit_zero hz5]
  simp only [View.readAt_eq_ld, harg4.read_unread, harg5.read_unread, harg6.read_unread, harg7.read_unread, harg8.read_unread, harg9.read_unread,
    View.ld_unit_zero (S := S1x4x4x16x1152) hz5, View.ld_unit_zero (S := S1152x3456) hz2, View.ld_unit_zero (S := S1152x1152) hz2,
    View.ld_unit_zero (S := S1x1152) hz2, View.ld_unit_zero (S := S1x72) hz2]
  exact congrArg (fun s => k0_pay1 (k0_pay25 s x2 x3)) (readCov_whole arg11.view (scratchPieces x0 x1 x4 x5) hz2 inb_S256x1152_S256x1152_0_0)

end Cert.KernelIdeal.Attn

end
-- ==== Proof.KEnds.lean ====
/- The two ends of the kernel's body, read at explicit coordinates.

   A block is [1, 4, 4, 16, 1152]: 4 x 4 positions by 16 columns by 1152 channels, the 16 columns being four bricks of 4.
   Going in, the body drops the unit axis, cuts the column axis into its four chunks of 4, flattens each chunk
   [4, 4, 4, 1152] to 64 rows (row n is position (n / 16, n / 4 % 4, n % 4) of the chunk), stacks the four chunks into
   256 rows (rows 64 * j … 64 * j + 63 are chunk j), and multiplies by the first weight. Going out it multiplies the 256
   rows by the last weight, adds the bias row, and undoes the same arrangement. A flattening keeps the row-major position,
   a cut shifts one coordinate by its offset, and a stack is read in the piece whose span holds the coordinate. -/
import proofs.«104549_j17987323036091_2_alg».proof.Proof.Gen.KernelIdeal.Skeleton
import proofs.«104549_j17987323036091_2_alg».proof.Proof.AttnSpec
import proofs.«104549_j17987323036091_2_alg».proof.Proof.KDots
import Idealize.ShloMosaic.Lib.Pipeline.Value
import Idealize.ShloMosaic.Lib.ValueIdx
import Idealize.ShloMosaic.PureOps.Ideal.Laws

noncomputable section

open scoped BigOperators

namespace Cert.KernelIdeal.Attn

open Cert.KernelIdeal Cert.KernelIdeal.Gen Idealize.ShloMosaic Idealize.ShloMosaic.ValueIdx

/-! ## The layout steps, one at a time -/

/-- The block without its leading unit axis. -/
theorem dropUnit_apply {α : Type} (v : S1x4x4x16x1152.Idx → α) (a b : Fin 4) (w : Fin 16) (c : Fin 1152) :
    shapeCast S4x4x16x1152 v shapeCasts_S1x4x4x16x1152_S4x4x16x1152 (ix4 a b w c) = v (ix5 (0 : Fin 1) a b w c) := by
  refine shapeCast_apply v shapeCasts_S1x4x4x16x1152_S4x4x16x1152 (ix4 a b w c) (ix5 (0 : Fin 1) a b w c) ?_
  rw [Shape.rowMajor_val_five, Shape.rowMajor_val_four]
  show (((0 * 4 + a.val) * 4 + b.val) * 16 + w.val) * 1152 + c.val = ((a.val * 4 + b.val) * 16 + w.val) * 1152 + c.val
  omega

/-- The block with a leading unit axis put back. -/
theorem addUnit_apply {α : Type} (v : S4x4x16x1152.Idx → α) (a b : Fin 4) (w : Fin 16) (c : Fin 1152) :
    shapeCast S1x4x4x16x1152 v shapeCasts_S4x4x16x1152_S1x4x4x16x1152 (ix5 (0 : Fin 1) a b w c) = v (ix4 a b w c) := by
  refine shapeCast_apply v shapeCasts_S4x4x16x1152_S1x4x4x16x1152 (ix5 (0 : Fin 1) a b w c) (ix4 a b w c) ?_
  rw [Shape.rowMajor_val_five, Shape.rowMajor_val_four]
  show ((a.val * 4 + b.val) * 16 + w.val) * 1152 + c.val = (((0 * 4 + a.val) * 4 + b.val) * 16 + w.val) * 1152 + c.val
  omega

/-- The four cuts of the column axis, as one family. -/
theorem slicesW (j : Fin 4) : S4x4x16x1152.Slices ![0, 0, 4 * j.val, 0] S4x4x4x1152 :=
  match j with
  | ⟨0, _⟩ => slices_S4x4x16x1152_o0_0_0_0_S4x4x4x1152
  | ⟨1, _⟩ => slices_S4x4x16x1152_o0_0_4_0_S4x4x4x1152
  | ⟨2, _⟩ => slices_S4x4x16x1152_o0_0_8_0_S4x4x4x1152
  | ⟨3, _⟩ => slices_S4x4x16x1152_o0_0_12_0_S4x4x4x1152

/-- The four cuts of the 256 rows, as one family. -/
theorem slicesR (j : Fin 4) : S256x1152.Slices ![64 * j.val, 0] S64x1152 :=
  match j with
  | ⟨0, _⟩ => slices_S256x1152_o0_0_S64x1152
  | ⟨1, _⟩ => slices_S256x1152_o64_0_S64x1152
  | ⟨2, _⟩ => slices_S256x1152_o128_0_S64x1152
  | ⟨3, _⟩ => slices_S256x1152_o192_0_S64x1152

/-- A chunk of 4 columns starting at column `off`, flattened to 64 rows: row n is position
    (n / 16, n / 4 % 4, off + n % 4). -/
theorem chunk_apply {α : Type} (v : S4x4x16x1152.Idx → α) (off : Nat)
    (hs : S4x4x16x1152.Slices ![0, 0, off, 0] S4x4x4x1152) (n : Fin 64) (c : Fin 1152) (w : Fin 16)
    (hw : w.val = off + n.val % 4) :
    shapeCast S64x1152 (extractStridedSlice S4x4x4x1152 ![0, 0, off, 0] v hs) shapeCasts_S4x4x4x1152_S64x1152 (ix2 n c)
      = v (ix4 (⟨n.val / 16, by have := n.isLt; omega⟩ : Fin 4) (⟨n.val / 4 % 4, by omega⟩ : Fin 4) w c) := by
  have hn := n.isLt; have hc := c.isLt
  refine (shapeCast_apply (extractStridedSlice S4x4x4x1152 ![0, 0, off, 0] v hs) shapeCasts_S4x4x4x1152_S64x1152 (ix2 n c)
    (ix4 (⟨n.val / 16, by omega⟩ : Fin 4) (⟨n.val / 4 % 4, by omega⟩ : Fin 4) (⟨n.val % 4, by omega⟩ : Fin 4) c) ?_).trans ?_
  · rw [Shape.rowMajor_val_four, Shape.rowMajor_val_two]
    show ((n.val / 16 * 4 + n.val / 4 % 4) * 4 + n.val % 4) * 1152 + c.val = n.val * 1152 + c.val
    omega
  · refine extractStridedSlice_apply ![0, 0, off, 0] v hs _ _ fun a => ?_
    match a with
    | ⟨0, _⟩ =>
      show n.val / 16 = 0 + n.val / 16
      omega
    | ⟨1, _⟩ =>
      show n.val / 4 % 4 = 0 + n.val / 4 % 4
      omega
    | ⟨2, _⟩ =>
      show w.val = off + n.val % 4
      exact hw
    | ⟨3, _⟩ =>
      show c.val = 0 + c.val
      omega

/-- 64 rows starting at row `off`, viewed as [4, 4, 4, 1152]: position (a, b, cc) is row off + (a * 4 + b) * 4 + cc. -/
theorem rowsChunk_apply {α : Type} (v : S256x1152.Idx → α) (off : Nat) (hs : S256x1152.Slices ![off, 0] S64x1152)
    (a b cc : Fin 4) (o : Fin 1152) (m : Fin 256) (hm : m.val = off + ((a.val * 4 + b.val) * 4 + cc.val)) :
    shapeCast S4x4x4x1152 (extractStridedSlice S64x1152 ![off, 0] v hs) shapeCasts_S64x1152_S4x4x4x1152 (ix4 a b cc o)
      = v (ix2 m o) := by
  have ha := a.isLt; have hb := b.isLt; have hcc := cc.isLt; have ho := o.isLt
  refine (shapeCast_apply (extractStridedSlice S64x1152 ![off, 0] v hs) shapeCasts_S64x1152_S4x4x4x1152 (ix4 a b cc o)
    (ix2 (⟨(a.val * 4 + b.val) * 4 + cc.val, by omega⟩ : Fin 64) o) ?_).trans ?_
  · rw [Shape.rowMajor_val_four, Shape.rowMajor_val_two]
    show ((a.val * 4 + b.val) * 4 + cc.val) * 1152 + o.val = ((a.val * 4 + b.val) * 4 + cc.val) * 1152 + o.val
    rfl
  · refine extractStridedSlice_apply ![off, 0] v hs _ _ fun e => ?_
    match e with
    | ⟨0, _⟩ =>
      show m.val = off + ((a.val * 4 + b.val) * 4 + cc.val)
      exact hm
    | ⟨1, _⟩ =>
      show o.val = 0 + o.val
      omega

/-- Off the stacking axis a row index and the stacked index have the same coordinates. -/
theorem rows_off_axis (m : Fin 256) (n : Fin 64) (c : Fin 1152) :
    ∀ b : Fin S64x1152.rank, b.cast (rfl : S64x1152.rank = S256x1152.rank) ≠ (0 : Fin S256x1152.rank) →
      ((ix2 n c : S64x1152.Idx) b).val = ((ix2 m c : S256x1152.Idx) (b.cast rfl)).val := fun b hb => by
  match b with
  | ⟨0, _⟩ => exact absurd rfl hb
  | ⟨1, _⟩ => rfl

/-- Four pieces of 64 rows stacked: rows 64 * j … 64 * j + 63 are piece j. -/
theorem rows_apply {α : Type} (P : Fin 4 → S64x1152.Idx → α) (j : Fin 4) (n : Fin 64) (c : Fin 1152) :
    concatenate S256x1152 0 [⟨S64x1152, P 0⟩, ⟨S64x1152, P 1⟩, ⟨S64x1152, P 2⟩, ⟨S64x1152, P 3⟩]
        concatenates_S64x1152_S64x1152_S64x1152_S64x1152_S256x1152_d0
        (ix2 (⟨64 * j.val + n.val, by have := j.isLt; have := n.isLt; omega⟩ : Fin 256) c)
      = P j (ix2 n c) := by
  have hn := n.isLt
  match j with
  | ⟨0, _⟩ =>
    refine concatenate_apply_piece (t := S256x1152) 0 _ _ _ 0 ?_ S64x1152 (P 0) ?_ (rfl : S64x1152.rank = S256x1152.rank) 0 ?_ (ix2 n c) ?_ ?_
    · show (0 : ℕ) < 4
      omega
    · rfl
    · rfl
    · exact rows_off_axis _ n c
    · show 0 + n.val = 64 * 0 + n.val
      omega
  | ⟨1, _⟩ =>
    refine concatenate_apply_piece (t := S256x1152) 0 _ _ _ 1 ?_ S64x1152 (P 1) ?_ (rfl : S64x1152.rank = S256x1152.rank) 64 ?_ (ix2 n c) ?_ ?_
    · show (1 : ℕ) < 4
      omega
    · rfl
    · rfl
    · exact rows_off_axis _ n c
    · show 64 + n.val = 64 * 1 + n.val
      omega
  | ⟨2, _⟩ =>
    refine concatenate_apply_piece (t := S256x1152) 0 _ _ _ 2 ?_ S64x1152 (P 2) ?_ (rfl : S64x1152.rank = S256x1152.rank) 128 ?_ (ix2 n c) ?_ ?_
    · show (2 : ℕ) < 4
      omega
    · rfl
    · rfl
    · exact rows_off_axis _ n c
    · show 128 + n.val = 64 * 2 + n.val
      omega
  | ⟨3, _⟩ =>
    refine concatenate_apply_piece (t := S256x1152) 0 _ _ _ 3 ?_ S64x1152 (P 3) ?_ (rfl : S64x1152.rank = S256x1152.rank) 192 ?_ (ix2 n c) ?_ ?_
    · show (3 : ℕ) < 4
      omega
    · rfl
    · rfl
    · exact rows_off_axis _ n c
    · show 192 + n.val = 64 * 3 + n.val
      omega

/-- Off the column axis a chunk index and the block index have the same coordinates. -/
theorem cols_off_axis (a b cc : Fin 4) (w : Fin 16) (o : Fin 1152) :
    ∀ e : Fin S4x4x4x1152.rank, e.cast (rfl : S4x4x4x1152.rank = S4x4x16x1152.rank) ≠ (2 : Fin S4x4x16x1152.rank) →
      ((ix4 a b cc o : S4x4x4x1152.Idx) e).val = ((ix4 a b w o : S4x4x16x1152.Idx) (e.cast rfl)).val := fun e he => by
  match e with
  | ⟨0, _⟩ => rfl
  | ⟨1, _⟩ => rfl
  | ⟨2, _⟩ => exact absurd rfl he
  | ⟨3, _⟩ => rfl

/-- Four chunks of 4 columns side by side: columns 4 * j … 4 * j + 3 are chunk j. -/
theorem cols_apply {α : Type} (P : Fin 4 → S4x4x4x1152.Idx → α) (a b : Fin 4) (j cc : Fin 4) (o : Fin 1152) :
    concatenate S4x4x16x1152 2 [⟨S4x4x4x1152, P 0⟩, ⟨S4x4x4x1152, P 1⟩, ⟨S4x4x4x1152, P 2⟩, ⟨S4x4x4x1152, P 3⟩]
        concatenates_S4x4x4x1152_S4x4x4x1152_S4x4x4x1152_S4x4x4x1152_S4x4x16x1152_d2
        (ix4 a b (⟨4 * j.val + cc.val, by have := j.isLt; have := cc.isLt; omega⟩ : Fin 16) o)
      = P j (ix4 a b cc o) := by
  have hcc := cc.isLt
  match j with
  | ⟨0, _⟩ =>
    refine concatenate_apply_piece (t := S4x4x16x1152) 2 _ _ _ 0 ?_ S4x4x4x1152 (P 0) ?_ (rfl : S4x4x4x1152.rank = S4x4x16x1152.rank) 0 ?_
      (ix4 a b cc o) ?_ ?_
    · show (0 : ℕ) < 4
      omega
    · rfl
    · rfl
    · exact cols_off_axis a b cc _ o
    · show 0 + cc.val = 4 * 0 + cc.val
      omega
  | ⟨1, _⟩ =>
    refine concatenate_apply_piece (t := S4x4x16x1152) 2 _ _ _ 1 ?_ S4x4x4x1152 (P 1) ?_ (rfl : S4x4x4x1152.rank = S4x4x16x1152.rank) 4 ?_
      (ix4 a b cc o) ?_ ?_
    · show (1 : ℕ) < 4
      omega
    · rfl
    · rfl
    · exact cols_off_axis a b cc _ o
    · show 4 + cc.val = 4 * 1 + cc.val
      omega
  | ⟨2, _⟩ =>
    refine concatenate_apply_piece (t := S4x4x16x1152) 2 _ _ _ 2 ?_ S4x4x4x1152 (P 2) ?_ (rfl : S4x4x4x1152.rank = S4x4x16x1152.rank) 8 ?_
      (ix4 a b cc o) ?_ ?_
    · show (2 : ℕ) < 4
      omega
    · rfl
    · rfl
    · exact cols_off_axis a b cc _ o
    · show 8 + cc.val = 4 * 2 + cc.val
      omega
  | ⟨3, _⟩ =>
    refine concatenate_apply_piece (t := S4x4x16x1152) 2 _ _ _ 3 ?_ S4x4x4x1152 (P 3) ?_ (rfl : S4x4x4x1152.rank = S4x4x16x1152.rank) 12 ?_
      (ix4 a b cc o) ?_ ?_
    · show (3 : ℕ) < 4
      omega
    · rfl
    · rfl
    · exact cols_off_axis a b cc _ o
    · show 12 + cc.val = 4 * 3 + cc.val
      omega

/-- The bias row repeated along the 256 rows. -/
theorem biasRow_apply {α : Type} (v : S1x1152.Idx → α) (m : Fin 256) (o : Fin 1152) :
    broadcastTo S256x1152 v broadcasts_S1x1152_S256x1152 (ix2 m o) = v (ix2 (0 : Fin 1) o) := by
  refine broadcastTo_apply v broadcasts_S1x1152_S256x1152 (ix2 m o) (ix2 (0 : Fin 1) o) fun a => ?_
  match a with
  | ⟨0, _⟩ => rfl
  | ⟨1, _⟩ => rfl

/-- THE ARRANGEMENT GOING IN, of any block `v` without its unit axis: row 64 * j + n of the stack of the four flattened
    chunks is `v` at position (n / 16, n / 4 % 4), column 4 * j + n % 4. -/
theorem inLayout_apply {α : Type} (v : S4x4x16x1152.Idx → α) (j : Fin 4) (n : Fin 64) (c : Fin 1152) :
    concatenate S256x1152 0
        [⟨S64x1152, shapeCast S64x1152 (extractStridedSlice S4x4x4x1152 ![0, 0, 0, 0] v slices_S4x4x16x1152_o0_0_0_0_S4x4x4x1152)
            shapeCasts_S4x4x4x1152_S64x1152⟩,
          ⟨S64x1152, shapeCast S64x1152 (extractStridedSlice S4x4x4x1152 ![0, 0, 4, 0] v slices_S4x4x16x1152_o0_0_4_0_S4x4x4x1152)
            shapeCasts_S4x4x4x1152_S64x1152⟩,
          ⟨S64x1152, shapeCast S64x1152 (extractStridedSlice S4x4x4x1152 ![0, 0, 8, 0] v slices_S4x4x16x1152_o0_0_8_0_S4x4x4x1152)
            shapeCasts_S4x4x4x1152_S64x1152⟩,
          ⟨S64x1152, shapeCast S64x1152 (extractStridedSlice S4x4x4x1152 ![0, 0, 12, 0] v slices_S4x4x16x1152_o0_0_12_0_S4x4x4x1152)
            shapeCasts_S4x4x4x1152_S64x1152⟩]
        concatenates_S64x1152_S64x1152_S64x1152_S64x1152_S256x1152_d0
        (ix2 (⟨64 * j.val + n.val, by have := j.isLt; have := n.isLt; omega⟩ : Fin 256) c)
      = v (ix4 (⟨n.val / 16, by have := n.isLt; omega⟩ : Fin 4) (⟨n.val / 4 % 4, by omega⟩ : Fin 4)
            (⟨4 * j.val + n.val % 4, by have := j.isLt; omega⟩ : Fin 16) c) := by
  refine (rows_apply (fun j' : Fin 4 => shapeCast S64x1152
      (extractStridedSlice S4x4x4x1152 ![0, 0, 4 * j'.val, 0] v (slicesW j')) shapeCasts_S4x4x4x1152_S64x1152) j n c).trans ?_
  exact chunk_apply v (4 * j.val) (slicesW j) n c (⟨4 * j.val + n.val % 4, by have := j.isLt; omega⟩ : Fin 16) rfl

/-- THE ARRANGEMENT GOING OUT, of any 256 rows `V`: position (a, b), column 4 * j + cc of the four chunks side by side is
    row 64 * j + (a * 4 + b) * 4 + cc of `V`. -/
theorem outLayout_apply {α : Type} (V : S256x1152.Idx → α) (a b : Fin 4) (j cc : Fin 4) (o : Fin 1152) :
    concatenate S4x4x16x1152 2
        [⟨S4x4x4x1152, shapeCast S4x4x4x1152 (extractStridedSlice S64x1152 ![0, 0] V slices_S256x1152_o0_0_S64x1152)
            shapeCasts_S64x1152_S4x4x4x1152⟩,
          ⟨S4x4x4x1152, shapeCast S4x4x4x1152 (extractStridedSlice S64x1152 ![64, 0] V slices_S256x1152_o64_0_S64x1152)
            shapeCasts_S64x1152_S4x4x4x1152⟩,
          ⟨S4x4x4x1152, shapeCast S4x4x4x1152 (extractStridedSlice S64x1152 ![128, 0] V slices_S256x1152_o128_0_S64x1152)
            shapeCasts_S64x1152_S4x4x4x1152⟩,
          ⟨S4x4x4x1152, shapeCast S4x4x4x1152 (extractStridedSlice S64x1152 ![192, 0] V slices_S256x1152_o192_0_S64x1152)
            shapeCasts_S64x1152_S4x4x4x1152⟩]
        concatenates_S4x4x4x1152_S4x4x4x1152_S4x4x4x1152_S4x4x4x1152_S4x4x16x1152_d2
        (ix4 a b (⟨4 * j.val + cc.val, by have := j.isLt; have := cc.isLt; omega⟩ : Fin 16) o)
      = V (ix2 (⟨64 * j.val + ((a.val * 4 + b.val) * 4 + cc.val), by
              have := j.isLt; have := a.isLt; have := b.isLt; have := cc.isLt; omega⟩ : Fin 256) o) := by
  refine (cols_apply (fun j' : Fin 4 => shapeCast S4x4x4x1152
      (extractStridedSlice S64x1152 ![64 * j'.val, 0] V (slicesR j')) shapeCasts_S64x1152_S4x4x4x1152) a b j cc o).trans ?_
  exact rowsChunk_apply V (64 * j.val) (slicesR j) a b cc o _ rfl

/-! ## The two ends -/

/-- GOING IN. Row 64 * j + n of the first product, column o: the sum over the channels of the block at position
    (n / 16, n / 4 % 4), column 4 * j + n % 4, times the weight. -/
theorem pay2_apply (x0 : Vec Ideal S1x4x4x16x1152 .f32) (x1 : Vec Ideal S1152x3456 .bf16) (j : Fin 4) (n : Fin 64)
    (o : Fin 3456) :
    k0_pay2 x0 x1 (ix2 (⟨64 * j.val + n.val, by have := j.isLt; have := n.isLt; omega⟩ : Fin 256) o)
      = ∑ c : Fin 1152,
          x0 (ix5 (0 : Fin 1) (⟨n.val / 16, by have := n.isLt; omega⟩ : Fin 4) (⟨n.val / 4 % 4, by omega⟩ : Fin 4)
              (⟨4 * j.val + n.val % 4, by have := j.isLt; omega⟩ : Fin 16) c) * x1 (ix2 c o) := by
  unfold k0_pay2
  rw [shapeCast_self (x1 : FVec Ideal S1152x3456 .bf16) shapeCasts_S1152x3456_S1152x3456, qkv_apply]
  refine Finset.sum_congr rfl fun c _ => ?_
  refine congrArg (· * x1 (ix2 c o)) ?_
  rw [truncf_apply]
  exact (inLayout_apply _ j n c).trans (dropUnit_apply x0 _ _ _ c)

/-- GOING OUT. The stored block at position (a, b), column 4 * j + cc, output o: row 64 * j + (a * 4 + b) * 4 + cc of
    the last product plus the bias. -/
theorem out_apply (S : Vec Ideal S256x1152 .f32) (x2 : Vec Ideal S1152x1152 .bf16) (x3 : Vec Ideal S1x1152 .f32)
    (a b : Fin 4) (j cc : Fin 4) (o : Fin 1152) :
    k0_pay1 (k0_pay25 S x2 x3) (ix5 (0 : Fin 1) a b (⟨4 * j.val + cc.val, by have := j.isLt; have := cc.isLt; omega⟩ : Fin 16) o)
      = (∑ c : Fin 1152,
            S (ix2 (⟨64 * j.val + ((a.val * 4 + b.val) * 4 + cc.val), by
                  have := j.isLt; have := a.isLt; have := b.isLt; have := cc.isLt; omega⟩ : Fin 256) c) * x2 (ix2 c o))
          + x3 (ix2 (0 : Fin 1) o) := by
  unfold k0_pay1
  rw [addUnit_apply]
  unfold k0_pay25
  refine (outLayout_apply _ a b j cc o).trans ?_
  rw [addf_apply, shapeCast_self (x2 : FVec Ideal S1152x1152 .bf16) shapeCasts_S1152x1152_S1152x1152,
    shapeCast_self (x3 : FVec Ideal S1x1152 .f32) shapeCasts_S1x1152_S1x1152, proj_apply, biasRow_apply]
  refine congrArg (· + x3 (ix2 (0 : Fin 1) o)) (Finset.sum_congr rfl fun c _ => ?_)
  rw [truncf_apply]

/-- The same with the row written 64 * j + (a * 4 + b) * 4 + cc, the sum associated to the left. -/
theorem out_apply' (S : Vec Ideal S256x1152 .f32) (x2 : Vec Ideal S1152x1152 .bf16) (x3 : Vec Ideal S1x1152 .f32)
    (a b : Fin 4) (j cc : Fin 4) (o : Fin 1152) :
    k0_pay1 (k0_pay25 S x2 x3) (ix5 (0 : Fin 1) a b (⟨4 * j.val + cc.val, by have := j.isLt; have := cc.isLt; omega⟩ : Fin 16) o)
      = (∑ c : Fin 1152,
            S (ix2 (⟨64 * j.val + (a.val * 4 + b.val) * 4 + cc.val, by
                  have := j.isLt; have := a.isLt; have := b.isLt; have := cc.isLt; omega⟩ : Fin 256) c) * x2 (ix2 c o))
          + x3 (ix2 (0 : Fin 1) o) := by
  have e : (⟨64 * j.val + (a.val * 4 + b.val) * 4 + cc.val, by
        have := j.isLt; have := a.isLt; have := b.isLt; have := cc.isLt; omega⟩ : Fin 256)
      = ⟨64 * j.val + ((a.val * 4 + b.val) * 4 + cc.val), by
        have := j.isLt; have := a.isLt; have := b.isLt; have := cc.isLt; omega⟩ :=
    Fin.ext (Nat.add_assoc _ _ _)
  rw [e]
  exact out_apply S x2 x3 a b j cc o

end Cert.KernelIdeal.Attn

end
-- ==== Proof.KPoint.lean ====
import proofs.«104549_j17987323036091_2_alg».proof.Proof.Gen.KernelIdeal.Frame
import proofs.«104549_j17987323036091_2_alg».proof.Proof.AttnSpec
import proofs.«104549_j17987323036091_2_alg».proof.Proof.KAttn
import proofs.«104549_j17987323036091_2_alg».proof.Proof.KBody
import proofs.«104549_j17987323036091_2_alg».proof.Proof.KEnds
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Attn

open Cert.KernelIdeal Cert.KernelIdeal.Gen Idealize.ShloMosaic Idealize.ShloMosaic.ValueIdx Cert.AttnSpec

variable {F : FTy → Type} [FloatOps F]

/-! ## One grid point, at the extended reals

With the point's input block `x0`, the two weight matrices `x1`, `x2` as the region finds them (already
transposed: `[in, out]`), the bias row `x3` and the two weight rows `x4`, `x5`, the output block at
`(0, a, b, 4 * j + cc, o)` is the specification's window function of window `j`'s 64 tokens, at token
`(a * 4 + b) * 4 + cc`. -/

section Point

variable (x0 : Vec Ideal S1x4x4x16x1152 .f32) (x1 : Vec Ideal S1152x3456 .bf16) (x2 : Vec Ideal S1152x1152 .bf16)
variable (x3 : Vec Ideal S1x1152 .f32) (x4 x5 : Vec Ideal S1x72 .f32)

/-- Window `j`'s tokens inside the point's block: token `n = (k1 * 4 + k2) * 4 + k3` sits at `(k1, k2, 4 * j + k3)`. -/
def blkTok (j : Fin 4) (n : Fin 64) (c : Fin 1152) : EReal :=
  x0 (ix5 (0 : Fin 1) (⟨n.val / 16, by have := n.isLt; omega⟩ : Fin 4) (⟨n.val / 4 % 4, by omega⟩ : Fin 4)
    (⟨4 * j.val + n.val % 4, by have := j.isLt; omega⟩ : Fin 16) c)

/-- A weight row seen as `[1, 1, 72]` is the row. -/
theorem pay3_apply (v : Vec Ideal S1x72 .f32) (d : Fin 72) : k0_pay3 v (ix3 (0 : Fin 1) (0 : Fin 1) d) = v (ix2 (0 : Fin 1) d) := by
  show shapeCast S1x1x72 (shapeCast S1x72 v shapeCasts_S1x72_S1x72) shapeCasts_S1x72_S1x1x72 (ix3 (0 : Fin 1) (0 : Fin 1) d) = _
  rw [shapeCast_self]
  exact shapeCast_apply _ shapeCasts_S1x72_S1x1x72 (ix3 (0 : Fin 1) (0 : Fin 1) d) (ix2 (0 : Fin 1) d)
    (by rw [Shape.rowMajor_val_two, Shape.rowMajor_val_three]
        show 0 * 72 + d.val = (0 * 1 + 0) * 72 + d.val; omega)

theorem pay4_apply (v : Vec Ideal S1x72 .f32) (d : Fin 72) : k0_pay4 v (ix3 (0 : Fin 1) (0 : Fin 1) d) = v (ix2 (0 : Fin 1) d) := by
  show shapeCast S1x1x72 (shapeCast S1x72 v shapeCasts_S1x72_S1x72) shapeCasts_S1x72_S1x1x72 (ix3 (0 : Fin 1) (0 : Fin 1) d) = _
  rw [shapeCast_self]
  exact shapeCast_apply _ shapeCasts_S1x72_S1x1x72 (ix3 (0 : Fin 1) (0 : Fin 1) d) (ix2 (0 : Fin 1) d)
    (by rw [Shape.rowMajor_val_two, Shape.rowMajor_val_three]
        show 0 * 72 + d.val = (0 * 1 + 0) * 72 + d.val; omega)

/-- Rows `64 * j …` of the first projection are window `j`'s projection. -/
theorem winRows_apply (j : Fin 4) (off : Fin 2 → Nat) (hs : S256x3456.Slices off S64x3456) (h0 : off 0 = 64 * j.val) (h1 : off 1 = 0)
    (n : Fin 64) (o : Fin 3456) :
    extractStridedSlice S64x3456 off (k0_pay2 x0 x1) hs (ix2 n o) = proj (blkTok x0 j) (fun o c => x1 (ix2 c o)) n o := by
  rw [extractStridedSlice_apply off _ hs (ix2 n o) (ix2 (⟨64 * j.val + n.val, by have := j.isLt; have := n.isLt; omega⟩ : Fin 256) o)
    (fun a => match a with
      | ⟨0, _⟩ => by show 64 * j.val + n.val = off 0 + n.val; omega
      | ⟨1, _⟩ => by show o.val = off 1 + o.val; omega)]
  rw [pay2_apply]
  rfl

/-- The value stored for window `j`: the specification's heads of that window's tokens. -/
theorem piece_apply (j : Fin 4) (off : Fin 2 → Nat) (hs : S256x3456.Slices off S64x3456) (h0 : off 0 = 64 * j.val) (h1 : off 1 = 0)
    (n : Fin 64) (c : Fin 1152) :
    attnK (k0_pay3 x4) (k0_pay4 x5) (extractStridedSlice S64x3456 off (k0_pay2 x0 x1) hs) (ix2 n c)
      = heads (blkTok x0 j) (fun o c => x1 (ix2 c o)) (fun d => x4 (ix2 (0 : Fin 1) d)) (fun d => x5 (ix2 (0 : Fin 1) d)) n c :=
  attnK_apply (blkTok x0 j) (fun o c => x1 (ix2 c o)) (fun d => x4 (ix2 (0 : Fin 1) d)) (fun d => x5 (ix2 (0 : Fin 1) d))
    (k0_pay3 x4) (k0_pay4 x5) _ (pay3_apply x4) (pay4_apply x5) (winRows_apply x0 x1 j off hs h0 h1) n c

theorem scratch_apply_0 (n : Fin 64) (c : Fin 1152) :
    View.canon (scratchPieces x0 x1 x4 x5) (ix2 (⟨64 * 0 + n.val, by have := n.isLt; omega⟩ : Fin 256) c)
      = heads (blkTok x0 (0 : Fin 4)) (fun o c => x1 (ix2 c o)) (fun d => x4 (ix2 (0 : Fin 1) d)) (fun d => x5 (ix2 (0 : Fin 1) d)) n c := by
  unfold scratchPieces
  rw [View.canon_cons_of_not_mem _ _ (by
    rw [Rect.mem_set_unit]; intro h; have h0 := (h 0).1
    have h0' : (192 : Nat) ≤ 64 * 0 + n.val := h0
    have := n.isLt; omega)]
  rw [View.canon_cons_of_not_mem _ _ (by
    rw [Rect.mem_set_unit]; intro h; have h0 := (h 0).1
    have h0' : (128 : Nat) ≤ 64 * 0 + n.val := h0
    have := n.isLt; omega)]
  rw [View.canon_cons_of_not_mem _ _ (by
    rw [Rect.mem_set_unit]; intro h; have h0 := (h 0).1
    have h0' : (64 : Nat) ≤ 64 * 0 + n.val := h0
    have := n.isLt; omega)]
  have e : (ix2 (⟨64 * 0 + n.val, by have := n.isLt; omega⟩ : Fin 256) c : S256x1152.Idx)
      = (Rect.unit (s := S256x1152) ![0, 0] S64x1152.size inb_S256x1152_S64x1152_0_0).emb (ix2 n c) := by
    funext a; apply Fin.ext
    match a with
    | ⟨0, _⟩ => show 64 * 0 + n.val = 0 + 1 * n.val; omega
    | ⟨1, _⟩ => show c.val = 0 + 1 * c.val; omega
  rw [e, View.canon_cons_emb]
  exact piece_apply x0 x1 x4 x5 (0 : Fin 4) _ _ rfl rfl n c

theorem scratch_apply_1 (n : Fin 64) (c : Fin 1152) :
    View.canon (scratchPieces x0 x1 x4 x5) (ix2 (⟨64 * 1 + n.val, by have := n.isLt; omega⟩ : Fin 256) c)
      = heads (blkTok x0 (1 : Fin 4)) (fun o c => x1 (ix2 c o)) (fun d => x4 (ix2 (0 : Fin 1) d)) (fun d => x5 (ix2 (0 : Fin 1) d)) n c := by
  unfold scratchPieces
  rw [View.canon_cons_of_not_mem _ _ (by
    rw [Rect.mem_set_unit]; intro h; have h0 := (h 0).1
    have h0' : (192 : Nat) ≤ 64 * 1 + n.val := h0
    have := n.isLt; omega)]
  rw [View.canon_cons_of_not_mem _ _ (by
    rw [Rect.mem_set_unit]; intro h; have h0 := (h 0).1
    have h0' : (128 : Nat) ≤ 64 * 1 + n.val := h0
    have := n.isLt; omega)]
  have e : (ix2 (⟨64 * 1 + n.val, by have := n.isLt; omega⟩ : Fin 256) c : S256x1152.Idx)
      = (Rect.unit (s := S256x1152) ![64, 0] S64x1152.size inb_S256x1152_S64x1152_64_0).emb (ix2 n c) := by
    funext a; apply Fin.ext
    match a with
    | ⟨0, _⟩ => show 64 * 1 + n.val = 64 + 1 * n.val; omega
    | ⟨1, _⟩ => show c.val = 0 + 1 * c.val; omega
  rw [e, View.canon_cons_emb]
  exact piece_apply x0 x1 x4 x5 (1 : Fin 4) _ _ rfl rfl n c

theorem scratch_apply_2 (n : Fin 64) (c : Fin 1152) :
    View.canon (scratchPieces x0 x1 x4 x5) (ix2 (⟨64 * 2 + n.val, by have := n.isLt; omega⟩ : Fin 256) c)
      = heads (blkTok x0 (2 : Fin 4)) (fun o c => x1 (ix2 c o)) (fun d => x4 (ix2 (0 : Fin 1) d)) (fun d => x5 (ix2 (0 : Fin 1) d)) n c := by
  unfold scratchPieces
  rw [View.canon_cons_of_not_mem _ _ (by
    rw [Rect.mem_set_unit]; intro h; have h0 := (h 0).1
    have h0' : (192 : Nat) ≤ 64 * 2 + n.val := h0
    have := n.isLt; omega)]
  have e : (ix2 (⟨64 * 2 + n.val, by have := n.isLt; omega⟩ : Fin 256) c : S256x1152.Idx)
      = (Rect.unit (s := S256x1152) ![128, 0] S64x1152.size inb_S256x1152_S64x1152_128_0).emb (ix2 n c) := by
    funext a; apply Fin.ext
    match a with
    | ⟨0, _⟩ => show 64 * 2 + n.val = 128 + 1 * n.val; omega
    | ⟨1, _⟩ => show c.val = 0 + 1 * c.val; omega
  rw [e, View.canon_cons_emb]
  exact piece_apply x0 x1 x4 x5 (2 : Fin 4) _ _ rfl rfl n c

theorem scratch_apply_3 (n : Fin 64) (c : Fin 1152) :
    View.canon (scratchPieces x0 x1 x4 x5) (ix2 (⟨64 * 3 + n.val, by have := n.isLt; omega⟩ : Fin 256) c)
      = heads (blkTok x0 (3 : Fin 4)) (fun o c => x1 (ix2 c o)) (fun d => x4 (ix2 (0 : Fin 1) d)) (fun d => x5 (ix2 (0 : Fin 1) d)) n c := by
  unfold scratchPieces
  have e : (ix2 (⟨64 * 3 + n.val, by have := n.isLt; omega⟩ : Fin 256) c : S256x1152.Idx)
      = (Rect.unit (s := S256x1152) ![192, 0] S64x1152.size inb_S256x1152_S64x1152_192_0).emb (ix2 n c) := by
    funext a; apply Fin.ext
    match a with
    | ⟨0, _⟩ => show 64 * 3 + n.val = 192 + 1 * n.val; omega
    | ⟨1, _⟩ => show c.val = 0 + 1 * c.val; omega
  rw [e, View.canon_cons_emb]
  exact piece_apply x0 x1 x4 x5 (3 : Fin 4) _ _ rfl rfl n c

/-- The scratch row of window `j`, token `n`. -/
theorem scratch_apply (j : Fin 4) (n : Fin 64) (c : Fin 1152) :
    View.canon (scratchPieces x0 x1 x4 x5) (ix2 (⟨64 * j.val + n.val, by have := j.isLt; have := n.isLt; omega⟩ : Fin 256) c)
      = heads (blkTok x0 j) (fun o c => x1 (ix2 c o)) (fun d => x4 (ix2 (0 : Fin 1) d)) (fun d => x5 (ix2 (0 : Fin 1) d)) n c :=
  match j with
  | ⟨0, _⟩ => scratch_apply_0 x0 x1 x4 x5 n c
  | ⟨1, _⟩ => scratch_apply_1 x0 x1 x4 x5 n c
  | ⟨2, _⟩ => scratch_apply_2 x0 x1 x4 x5 n c
  | ⟨3, _⟩ => scratch_apply_3 x0 x1 x4 x5 n c

end Point

/-- THE POINT'S OUTPUT BLOCK at `(0, a, b, 4 * j + cc, o)`: the window function of window `j`'s tokens at token
    `(a * 4 + b) * 4 + cc`, with the weights as the region finds them. -/
theorem point_apply (c : Dev nD) (i : grid0.Coords) (arg4 : Memref sig .tc .vmem S1x4x4x16x1152 .f32) (harg4 : arg4.IsWhole) (arg5 : Memref sig .tc .vmem S1152x3456 .bf16) (harg5 : arg5.IsWhole) (arg6 : Memref sig .tc .vmem S1152x1152 .bf16) (harg6 : arg6.IsWhole) (arg7 : Memref sig .tc .vmem S1x1152 .f32) (harg7 : arg7.IsWhole) (arg8 : Memref sig .tc .vmem S1x72 .f32) (harg8 : arg8.IsWhole) (arg9 : Memref sig .tc .vmem S1x72 .f32) (harg9 : arg9.IsWhole) (arg10 : Memref sig .tc .vmem S1x4x4x16x1152 .f32) (harg10 : arg10.IsWhole) (arg11 : Memref sig .tc .vmem S256x1152 .f32) (harg11 : arg11.IsWhole)
    (x0 : Vec Ideal S1x4x4x16x1152 .f32) (x1 : Vec Ideal S1152x3456 .bf16) (x2 : Vec Ideal S1152x1152 .bf16) (x3 : Vec Ideal S1x1152 .f32) (x4 : Vec Ideal S1x72 .f32) (x5 : Vec Ideal S1x72 .f32) (a b j cc : Fin 4) (o : Fin 1152) :
    out0_A_6 c i arg4 harg4 arg5 harg5 arg6 harg6 arg7 harg7 arg8 harg8 arg9 harg9 arg10 harg10 arg11 harg11 x0 x1 x2 x3 x4 x5 (ix5 (0 : Fin 1) a b (⟨4 * j.val + cc.val, by have := j.isLt; have := cc.isLt; omega⟩ : Fin 16) o)
      = out (blkTok x0 j) (fun o c => x1 (ix2 c o)) (fun d => x4 (ix2 (0 : Fin 1) d)) (fun d => x5 (ix2 (0 : Fin 1) d))
          (fun o c => x2 (ix2 c o)) (fun o => x3 (ix2 (0 : Fin 1) o))
          (⟨(a.val * 4 + b.val) * 4 + cc.val, by have := a.isLt; have := b.isLt; have := cc.isLt; omega⟩ : Fin 64) o := by
  rw [out_eq, out_apply]
  unfold out
  exact congrArg (· + x3 (ix2 (0 : Fin 1) o)) (Finset.sum_congr rfl fun k _ => congrArg (· * x2 (ix2 k o))
    (scratch_apply x0 x1 x4 x5 j (⟨(a.val * 4 + b.val) * 4 + cc.val, by have := a.isLt; have := b.isLt; have := cc.isLt; omega⟩ : Fin 64) k))

end Cert.KernelIdeal.Attn

end
-- ==== Proof.KArray.lean ====
import proofs.«104549_j17987323036091_2_alg».proof.Proof.Gen.KernelIdeal.Value
import proofs.«104549_j17987323036091_2_alg».proof.Proof.AttnSpec
import proofs.«104549_j17987323036091_2_alg».proof.Proof.KGrid
import proofs.«104549_j17987323036091_2_alg».proof.Proof.KPoint
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Attn

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.AttnSpec
open Idealize.ShloMosaic.Pipeline (Dat)

variable (m : (ℓ : Loc nD τ sig) → Buf (Elt Ideal) ℓ) (ρ : Dev nD → PrngReg)

/-! ## From the points' blocks to the whole result

Point `t` writes back the block `(b, ti, hi, wi)` of the result; inside it, position `(a, b', 4 * j + cc)`
belongs to window `(ti, hi, 4 * wi + j)` and is its token `(a * 4 + b') * 4 + cc`: exactly how the
specification reads the same array index. The blocks tile the array, so the array ends at the specification. -/

/-- Every index of a block, by coordinates. -/
theorem split5 (y : S1x4x4x16x1152.Idx) : ∃ (a b j cc : Fin 4) (o : Fin 1152) (h : 4 * j.val + cc.val < 16),
    y = ix5 (0 : Fin 1) a b (⟨4 * j.val + cc.val, h⟩ : Fin 16) o := by
  have h3 : (y 3).val < 16 := (y 3).isLt
  refine ⟨y 1, y 2, ⟨(y 3).val / 4, by omega⟩, ⟨(y 3).val % 4, by omega⟩, y 4, by show 4 * ((y 3).val / 4) + (y 3).val % 4 < 16; omega, ?_⟩
  funext a; apply Fin.ext
  match a with
  | ⟨0, _⟩ => show (y 0).val = 0; have : (y 0).val < 1 := (y 0).isLt; omega
  | ⟨1, _⟩ => rfl
  | ⟨2, _⟩ => rfl
  | ⟨3, _⟩ => show (y 3).val = 4 * ((y 3).val / 4) + (y 3).val % 4; omega
  | ⟨4, _⟩ => rfl

/-- The window function is a function of its arguments. -/
theorem out_congr {X X' : Fin 64 → Fin 1152 → EReal} {W W' : Fin 3456 → Fin 1152 → EReal} {qw qw' kw kw' : Fin 72 → EReal}
    {P P' : Fin 1152 → Fin 1152 → EReal} {bp bp' : Fin 1152 → EReal} {n n' : Fin 64} {o o' : Fin 1152}
    (hX : X = X') (hW : W = W') (hq : qw = qw') (hk : kw = kw') (hP : P = P') (hb : bp = bp') (hn : n = n') (ho : o = o') :
    out X W qw kw P bp n o = out X' W' qw' kw' P' bp' n' o' := by
  subst hX hW hq hk hP hb hn ho; rfl

/-- The specification of the arguments as launched. -/
abbrev Garr (c : Dev nD) : S2x8x32x32x1152.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- WHAT POINT `t` WRITES BACK is block `t` of the specification. -/
theorem flushed_eq (c : Dev nD) (t : Fin cfg0.N) :
    (dats m 0 c).flushed 6 t = ((cfg0.win 6).blk t).view.read (Elt Ideal) (Garr m c) := by
  rw [flushed6_A]
  obtain ⟨e0, e1, e2, e3, e4, e5, b0, b1, b2, b3, w10, w11, w20, w21, w30, w31, w40, w41, w50, w51⟩ := idx_facts t
  funext y
  obtain ⟨a, b, j, cc, o, hjc, rfl⟩ := split5 y
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (ix5 (0 : Fin 1) a b (⟨4 * j.val + cc.val, hjc⟩ : Fin 16) o)
    = Garr m c (((cfg0.win 6).blk t).view.emb (ix5 (0 : Fin 1) a b (⟨4 * j.val + cc.val, hjc⟩ : Fin 16) o))
  rw [point_apply]
  generalize hi : ((cfg0.win 6).blk t).view.emb (ix5 (0 : Fin 1) a b (⟨4 * j.val + cc.val, hjc⟩ : Fin 16) o) = i
  have hi0 : (i 0).val = win0_6.index t (0 : Fin 5) * 1 + 1 * 0 := by rw [← hi]; rfl
  have hi1 : (i 1).val = win0_6.index t (1 : Fin 5) * 4 + 1 * a.val := by rw [← hi]; rfl
  have hi2 : (i 2).val = win0_6.index t (2 : Fin 5) * 4 + 1 * b.val := by rw [← hi]; rfl
  have hi3 : (i 3).val = win0_6.index t (3 : Fin 5) * 16 + 1 * (4 * j.val + cc.val) := by rw [← hi]; rfl
  have hi4 : (i 4).val = win0_6.index t (4 : Fin 5) * 1152 + 1 * o.val := by rw [← hi]; rfl
  have ha := a.isLt; have hb := b.isLt; have hj := j.isLt; have hcc := cc.isLt
  show _ = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2) (i 3) (i 4)
  unfold Gc
  refine out_congr ?_ ?_ ?_ ?_ ?_ ?_ (Fin.ext ?_) (Fin.ext ?_)
  · -- the window's tokens
    funext n k
    have hn := n.isLt
    show V m c main_arg0 (((cfg0.win 0).blk t).view.emb (ix5 (0 : Fin 1) (⟨n.val / 16, by omega⟩ : Fin 4) (⟨n.val / 4 % 4, by omega⟩ : Fin 4) (⟨4 * j.val + n.val % 4, by omega⟩ : Fin 16) k)) = _
    rw [V_main_arg0]
    unfold tok
    refine congrArg (m ((c : Thread nD τ).loc main_arg0)) (funext fun d => Fin.ext ?_)
    match d with
    | ⟨0, _⟩ => show win0_0.index t (0 : Fin 5) * 1 + 1 * 0 = (i 0).val; omega
    | ⟨1, _⟩ => show win0_0.index t (1 : Fin 5) * 4 + 1 * (n.val / 16) = (i 1).val / 4 * 4 + n.val / 16; omega
    | ⟨2, _⟩ => show win0_0.index t (2 : Fin 5) * 4 + 1 * (n.val / 4 % 4) = (i 2).val / 4 * 4 + n.val / 4 % 4; omega
    | ⟨3, _⟩ => show win0_0.index t (3 : Fin 5) * 16 + 1 * (4 * j.val + n.val % 4) = (i 3).val / 4 * 4 + n.val % 4; omega
    | ⟨4, _⟩ => show win0_0.index t (4 : Fin 5) * 1152 + 1 * k.val = k.val; omega
  · funext o' k
    show V m c main_v1 (((cfg0.win 1).blk t).view.emb (ix2 k o')) = _
    rw [show ((cfg0.win 1).blk t).view.emb (ix2 k o') = ix2 k o' from (funext fun a => Fin.ext (match a with
      | ⟨0, _⟩ => by show win0_1.index t (0 : Fin 2) * 1152 + 1 * k.val = k.val; omega
      | ⟨1, _⟩ => by show win0_1.index t (1 : Fin 2) * 3456 + 1 * o'.val = o'.val; omega))]
    exact V_v1_apply m c k o'
  · funext d
    show V m c main_v5 (((cfg0.win 4).blk t).view.emb (ix2 (0 : Fin 1) d)) = _
    rw [show ((cfg0.win 4).blk t).view.emb (ix2 (0 : Fin 1) d) = ix2 (0 : Fin 1) d from (funext fun a => Fin.ext (match a with
      | ⟨0, _⟩ => by show win0_4.index t (0 : Fin 2) * 1 + 1 * (0 : Fin 1).val = (0 : Fin 1).val; omega
      | ⟨1, _⟩ => by show win0_4.index t (1 : Fin 2) * 72 + 1 * d.val = d.val; omega))]
    exact V_v5_apply m c d
  · funext d
    show V m c main_v6 (((cfg0.win 5).blk t).view.emb (ix2 (0 : Fin 1) d)) = _
    rw [show ((cfg0.win 5).blk t).view.emb (ix2 (0 : Fin 1) d) = ix2 (0 : Fin 1) d from (funext fun a => Fin.ext (match a with
      | ⟨0, _⟩ => by show win0_5.index t (0 : Fin 2) * 1 + 1 * (0 : Fin 1).val = (0 : Fin 1).val; omega
      | ⟨1, _⟩ => by show win0_5.index t (1 : Fin 2) * 72 + 1 * d.val = d.val; omega))]
    exact V_v6_apply m c d
  · funext o' k
    show V m c main_v3 (((cfg0.win 2).blk t).view.emb (ix2 k o')) = _
    rw [show ((cfg0.win 2).blk t).view.emb (ix2 k o') = ix2 k o' from (funext fun a => Fin.ext (match a with
      | ⟨0, _⟩ => by show win0_2.index t (0 : Fin 2) * 1152 + 1 * k.val = k.val; omega
      | ⟨1, _⟩ => by show win0_2.index t (1 : Fin 2) * 1152 + 1 * o'.val = o'.val; omega))]
    exact V_v3_apply m c k o'
  · funext o'
    show V m c main_v4 (((cfg0.win 3).blk t).view.emb (ix2 (0 : Fin 1) o')) = _
    rw [show ((cfg0.win 3).blk t).view.emb (ix2 (0 : Fin 1) o') = ix2 (0 : Fin 1) o' from (funext fun a => Fin.ext (match a with
      | ⟨0, _⟩ => by show win0_3.index t (0 : Fin 2) * 1 + 1 * (0 : Fin 1).val = (0 : Fin 1).val; omega
      | ⟨1, _⟩ => by show win0_3.index t (1 : Fin 2) * 1152 + 1 * o'.val = o'.val; omega))]
    exact V_v4_apply m c o'
  · show (a.val * 4 + b.val) * 4 + cc.val = ((i 1).val % 4 * 4 + (i 2).val % 4) * 4 + (i 3).val % 4
    omega
  · show o.val = (i 4).val
    omega

/-- THE RESULT ARRAY after the run is the specification of the arguments. -/
theorem final (c : Dev nD) : (dats m 0 c).arrAt 6 cfg0.N = Garr m c :=
  (dats m 0 c).arrAt_eq_of_cover 6 (Garr m c) (fun t _ => flushed_eq m c t) covered

/-- The kernel's run, its result named: the specification of the arguments, which end unchanged. -/
theorem run : θ_run defs (onTc (τ := τ) (main (F := Ideal))) ⟨m, fun _ => 0, ρ⟩ fun r => ∀ c : Dev nD,
      r.2.mem ((c : Thread nD τ).loc main_v7) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Attn

end
-- ==== Proof.RefLayout.lean ====
/- The two re-arrangements of the reference program, read at explicit coordinates.

   The input of shape [2, 8, 32, 32, 1152] is cut into 256 bricks of 4 x 4 x 4 positions: it is viewed at rank 8 as
   [b, n1, k1, n2, k2, n3, k3, c], the axes are permuted to [n1, n2, n3, b, k1, k2, k3, c], and the result is viewed at
   rank 3 as [m, n, c] with m = ((n1 * 8 + n2) * 8 + n3) * 2 + b and n = (k1 * 4 + k2) * 4 + k3. A change of view keeps
   the row-major position, so it is read by writing both positions out and comparing them. The way back is the same
   three steps in the opposite order. -/
import proofs.«104549_j17987323036091_2_alg».proof.Proof.Gen.ReferenceIdeal.Read
import proofs.«104549_j17987323036091_2_alg».proof.Proof.AttnSpec

noncomputable section

namespace Cert.RefBridge

open Cert.ReferenceIdeal Cert.ReferenceIdeal.Gen Cert.ReferenceIdeal.Read Cert.AttnSpec
open Idealize.ShloMosaic Idealize.ShloMosaic.ValueIdx

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- The brick (n1, n2, n3) of batch element b, among the 256. -/
def win (b : Fin 2) (n1 : Fin 2) (n2 n3 : Fin 8) : Fin 256 :=
  ⟨((n1.val * 8 + n2.val) * 8 + n3.val) * 2 + b.val, by
    have := b.isLt; have := n1.isLt; have := n2.isLt; have := n3.isLt; omega⟩

/-- The bricks' array at brick (n1, n2, n3) of batch element b, position n, channel c, is the input at the brick's
    position n: the specification's `tok`. -/
theorem xw_apply (x : (⟨S2x8x32x32x1152, .f32⟩ : BufTy).Contents (Elt Ideal)) (b : Fin 2) (n1 : Fin 2) (n2 n3 : Fin 8)
    (n : Fin 64) (c : Fin 1152) :
    val_main_v2 (F := Ideal) x (ix3 (win b n1 n2 n3) n c) = tok x b n1 n2 n3 n c := by
  have hb := b.isLt; have h1 := n1.isLt; have h2 := n2.isLt; have h3 := n3.isLt; have hn := n.isLt; have hc := c.isLt
  unfold val_main_v2
  -- the rank-8 index with the same position: [n1, n2, n3, b, k1, k2, k3, c]
  rw [shapeCast_apply (val_main_v1 (F := Ideal) x) shapeCasts_S2x8x8x2x4x4x4x1152_S256x64x1152 (ix3 (win b n1 n2 n3) n c)
    (ix8 n1 n2 n3 b (⟨n.val / 16, by omega⟩ : Fin 4) (⟨n.val / 4 % 4, by omega⟩ : Fin 4) (⟨n.val % 4, by omega⟩ : Fin 4) c)
    (by
      rw [rowMajor_val_eight, Shape.rowMajor_val_three]
      show ((((((n1.val * 8 + n2.val) * 8 + n3.val) * 2 + b.val) * 4 + n.val / 16) * 4 + n.val / 4 % 4) * 4 + n.val % 4) * 1152
          + c.val = ((((n1.val * 8 + n2.val) * 8 + n3.val) * 2 + b.val) * 64 + n.val) * 1152 + c.val
      omega)]
  rw [val_main_v1_apply]
  unfold val_main_v0 tok
  refine shapeCast_apply x shapeCasts_S2x8x32x32x1152_S2x2x4x8x4x8x4x1152 _ _ ?_
  rw [Shape.rowMajor_val_five, rowMajor_val_eight]
  show (((b.val * 8 + (n1.val * 4 + n.val / 16)) * 32 + (n2.val * 4 + n.val / 4 % 4)) * 32 + (n3.val * 4 + n.val % 4)) * 1152
      + c.val = ((((((b.val * 2 + n1.val) * 4 + n.val / 16) * 8 + n2.val) * 4 + n.val / 4 % 4) * 8 + n3.val) * 4 + n.val % 4) * 1152
      + c.val
  omega

/-- The way back. The result array at (b, t, h, w, c) is the bricks' array at the brick containing (t, h, w), at the
    position of (t, h, w) inside it. -/
theorem unwindow_apply (x : (⟨S2x8x32x32x1152, .f32⟩ : BufTy).Contents (Elt Ideal))
    (wqkv : (⟨S3456x1152, .f32⟩ : BufTy).Contents (Elt Ideal)) (qw kw : (⟨S72, .f32⟩ : BufTy).Contents (Elt Ideal))
    (b : Fin 2) (t : Fin 8) (h w : Fin 32) (c : Fin 1152) :
    val_main_v57 (F := Ideal) x wqkv qw kw (ix5 b t h w c)
      = val_main_v54 (F := Ideal) x wqkv qw kw
          (ix3 (win b (⟨t.val / 4, by have := t.isLt; omega⟩ : Fin 2) (⟨h.val / 4, by have := h.isLt; omega⟩ : Fin 8)
                (⟨w.val / 4, by have := w.isLt; omega⟩ : Fin 8))
            (⟨(t.val % 4 * 4 + h.val % 4) * 4 + w.val % 4, by omega⟩ : Fin 64) c) := by
  have hb := b.isLt; have ht := t.isLt; have hh := h.isLt; have hw := w.isLt; have hc := c.isLt
  unfold val_main_v57
  -- the rank-8 index with the same position: [b, n1, k1, n2, k2, n3, k3, c]
  rw [shapeCast_apply (val_main_v56 (F := Ideal) x wqkv qw kw) shapeCasts_S2x2x4x8x4x8x4x1152_S2x8x32x32x1152 (ix5 b t h w c)
    (ix8 b (⟨t.val / 4, by omega⟩ : Fin 2) (⟨t.val % 4, by omega⟩ : Fin 4) (⟨h.val / 4, by omega⟩ : Fin 8)
      (⟨h.val % 4, by omega⟩ : Fin 4) (⟨w.val / 4, by omega⟩ : Fin 8) (⟨w.val % 4, by omega⟩ : Fin 4) c)
    (by
      rw [rowMajor_val_eight, Shape.rowMajor_val_five]
      show ((((((b.val * 2 + t.val / 4) * 4 + t.val % 4) * 8 + h.val / 4) * 4 + h.val % 4) * 8 + w.val / 4) * 4 + w.val % 4) * 1152
          + c.val = (((b.val * 8 + t.val) * 32 + h.val) * 32 + w.val) * 1152 + c.val
      omega)]
  rw [val_main_v56_apply]
  unfold val_main_v55
  refine shapeCast_apply (val_main_v54 (F := Ideal) x wqkv qw kw) shapeCasts_S256x64x1152_S2x8x8x2x4x4x4x1152 _ _ ?_
  rw [Shape.rowMajor_val_three, rowMajor_val_eight]
  show ((((t.val / 4 * 8 + h.val / 4) * 8 + w.val / 4) * 2 + b.val) * 64 + ((t.val % 4 * 4 + h.val % 4) * 4 + w.val % 4)) * 1152
      + c.val = ((((((t.val / 4 * 8 + h.val / 4) * 8 + w.val / 4) * 2 + b.val) * 4 + t.val % 4) * 4 + h.val % 4) * 4 + w.val % 4) * 1152
      + c.val
  omega

end Cert.RefBridge

end
-- ==== Proof.RefQKV.lean ====
/- The first projection of the reference program and its three parts, read at explicit coordinates.

   The projection's 3456 columns are viewed as [part, head, feature] (3 x 16 x 72), the axes are permuted to
   [part, brick, head, position, feature], and one part is cut out. So part p of the projection at
   (brick, head, position, feature) is the projection at (brick, position, column p * 1152 + head * 72 + feature). -/
import proofs.«104549_j17987323036091_2_alg».proof.Proof.RefLayout

noncomputable section

namespace Cert.RefBridge

open Cert.ReferenceIdeal Cert.ReferenceIdeal.Gen Cert.ReferenceIdeal.Read Cert.AttnSpec
open Idealize.ShloMosaic Idealize.ShloMosaic.ValueIdx

/-! ## The index maps of the layout steps, at coordinates -/

/-- Viewing [part, head, feature] as one column: the column is `col`. -/
theorem idx4_eq (m : Fin 256) (n : Fin 64) (p : Fin 3) (h : Fin 16) (d : Fin 72) :
    idx_main_v4 (ix5 m n p h d) = ix3 m n (col p h d) := by
  have hm := m.isLt; have hn := n.isLt; have hp := p.isLt; have hh := h.isLt; have hd := d.isLt
  funext a; apply Fin.ext
  match a with
  | ⟨0, _⟩ =>
    show ((((m.val * 64 + n.val) * 3 + p.val) * 16 + h.val) * 72 + d.val) / 221184 = m.val
    omega
  | ⟨1, _⟩ =>
    show ((((m.val * 64 + n.val) * 3 + p.val) * 16 + h.val) * 72 + d.val) / 3456 % 64 = n.val
    omega
  | ⟨2, _⟩ =>
    show ((((m.val * 64 + n.val) * 3 + p.val) * 16 + h.val) * 72 + d.val) % 3456 = p.val * 1152 + h.val * 72 + d.val
    omega

/-- The permutation of the axes. -/
theorem idx5_eq (p : Fin 3) (m : Fin 256) (h : Fin 16) (n : Fin 64) (d : Fin 72) :
    idx_main_v5 (ix5 p m h n d) = ix5 m n p h d := by
  funext a; apply Fin.ext
  match a with
  | ⟨0, _⟩ => rfl
  | ⟨1, _⟩ => rfl
  | ⟨2, _⟩ => rfl
  | ⟨3, _⟩ => rfl
  | ⟨4, _⟩ => rfl

/-- Dropping the leading axis of size one. -/
theorem idx7_eq (m : Fin 256) (h : Fin 16) (n : Fin 64) (d : Fin 72) :
    idx_main_v7 (ix4 m h n d) = ix5 (0 : Fin 1) m h n d := by
  have hm := m.isLt; have hh := h.isLt; have hn := n.isLt; have hd := d.isLt
  funext a; apply Fin.ext
  match a with
  | ⟨0, _⟩ => rfl
  | ⟨1, _⟩ =>
    show (((m.val * 16 + h.val) * 64 + n.val) * 72 + d.val) / 73728 % 256 = m.val
    omega
  | ⟨2, _⟩ =>
    show (((m.val * 16 + h.val) * 64 + n.val) * 72 + d.val) / 4608 % 16 = h.val
    omega
  | ⟨3, _⟩ =>
    show (((m.val * 16 + h.val) * 64 + n.val) * 72 + d.val) / 72 % 64 = n.val
    omega
  | ⟨4, _⟩ =>
    show (((m.val * 16 + h.val) * 64 + n.val) * 72 + d.val) % 72 = d.val
    omega

theorem idx9_eq (m : Fin 256) (h : Fin 16) (n : Fin 64) (d : Fin 72) :
    idx_main_v9 (ix4 m h n d) = ix5 (0 : Fin 1) m h n d := idx7_eq m h n d

theorem idx11_eq (m : Fin 256) (h : Fin 16) (n : Fin 64) (d : Fin 72) :
    idx_main_v11 (ix4 m h n d) = ix5 (0 : Fin 1) m h n d := idx7_eq m h n d

/-- Cutting out part 0, 1, 2. -/
theorem idx6_eq (m : Fin 256) (h : Fin 16) (n : Fin 64) (d : Fin 72) :
    idx_main_v6 (ix5 (0 : Fin 1) m h n d) = ix5 (0 : Fin 3) m h n d := by
  funext a; apply Fin.ext
  match a with
  | ⟨0, _⟩ => rfl
  | ⟨1, _⟩ => rfl
  | ⟨2, _⟩ => rfl
  | ⟨3, _⟩ => rfl
  | ⟨4, _⟩ => rfl

theorem idx8_eq (m : Fin 256) (h : Fin 16) (n : Fin 64) (d : Fin 72) :
    idx_main_v8 (ix5 (0 : Fin 1) m h n d) = ix5 (1 : Fin 3) m h n d := by
  funext a; apply Fin.ext
  match a with
  | ⟨0, _⟩ => rfl
  | ⟨1, _⟩ => rfl
  | ⟨2, _⟩ => rfl
  | ⟨3, _⟩ => rfl
  | ⟨4, _⟩ => rfl

theorem idx10_eq (m : Fin 256) (h : Fin 16) (n : Fin 64) (d : Fin 72) :
    idx_main_v10 (ix5 (0 : Fin 1) m h n d) = ix5 (2 : Fin 3) m h n d := by
  funext a; apply Fin.ext
  match a with
  | ⟨0, _⟩ => rfl
  | ⟨1, _⟩ => rfl
  | ⟨2, _⟩ => rfl
  | ⟨3, _⟩ => rfl
  | ⟨4, _⟩ => rfl

section

variable (x : (⟨S2x8x32x32x1152, .f32⟩ : BufTy).Contents (Elt Ideal))
variable (wqkv : (⟨S3456x1152, .f32⟩ : BufTy).Contents (Elt Ideal))

/-- The permuted projection at (part, brick, head, position, feature) is the projection at the part's column. -/
theorem v5_apply (p : Fin 3) (m : Fin 256) (h : Fin 16) (n : Fin 64) (d : Fin 72) :
    val_main_v5 (F := Ideal) x wqkv (ix5 p m h n d) = val_main_v3 (F := Ideal) x wqkv (ix3 m n (col p h d)) := by
  rw [val_main_v5_apply, idx5_eq, val_main_v4_apply, idx4_eq]

variable (b : Fin 2) (n1 : Fin 2) (n2 n3 : Fin 8)

/-- The projection of a brick is the specification's projection of the brick's tokens. -/
theorem proj_apply (n : Fin 64) (o : Fin 3456) :
    val_main_v3 (F := Ideal) x wqkv (ix3 (win b n1 n2 n3) n o)
      = proj (tok x b n1 n2 n3) (fun o c => wqkv (ix2 o c)) n o := by
  rw [val_main_v3_apply]
  unfold proj
  refine Finset.sum_congr rfl fun k _ => ?_
  have el : lidx_main_v3 (ix3 (win b n1 n2 n3) n o) k = ix3 (win b n1 n2 n3) n k :=
    funext fun a => Fin.ext (by match a with | ⟨0, _⟩ => rfl | ⟨1, _⟩ => rfl | ⟨2, _⟩ => rfl)
  have er : ridx_main_v3 (ix3 (win b n1 n2 n3) n o) k = ix2 o k :=
    funext fun a => Fin.ext (by match a with | ⟨0, _⟩ => rfl | ⟨1, _⟩ => rfl)
  rw [el, er, xw_apply]

/-- The queries of a brick. -/
theorem part_q_apply (h : Fin 16) (n : Fin 64) (d : Fin 72) :
    val_main_v7 (F := Ideal) x wqkv (ix4 (win b n1 n2 n3) h n d)
      = part (tok x b n1 n2 n3) (fun o c => wqkv (ix2 o c)) 0 h n d := by
  rw [val_main_v7_apply, idx7_eq, val_main_v6_apply, idx6_eq, v5_apply, proj_apply]
  rfl

/-- The keys of a brick. -/
theorem part_k_apply (h : Fin 16) (n : Fin 64) (d : Fin 72) :
    val_main_v9 (F := Ideal) x wqkv (ix4 (win b n1 n2 n3) h n d)
      = part (tok x b n1 n2 n3) (fun o c => wqkv (ix2 o c)) 1 h n d := by
  rw [val_main_v9_apply, idx9_eq, val_main_v8_apply, idx8_eq, v5_apply, proj_apply]
  rfl

/-- The values of a brick. -/
theorem part_v_apply (h : Fin 16) (n : Fin 64) (d : Fin 72) :
    val_main_v11 (F := Ideal) x wqkv (ix4 (win b n1 n2 n3) h n d)
      = part (tok x b n1 n2 n3) (fun o c => wqkv (ix2 o c)) 2 h n d := by
  rw [val_main_v11_apply, idx11_eq, val_main_v10_apply, idx10_eq, v5_apply, proj_apply]
  rfl

end

end Cert.RefBridge

end
-- ==== Proof.RefNorm.lean ====
/- The normalised queries and keys of the reference program, read at explicit coordinates.

   Per brick, head and position the reference sums the squares of the 72 features (from a zero initial value, which is
   dropped), divides by 72, adds a small constant and takes the reciprocal root; the feature is multiplied by that
   number and then, from the left, by the feature's weight. The specification multiplies by the weight from the right:
   multiplication of extended reals is commutative. -/
import proofs.«104549_j17987323036091_2_alg».proof.Proof.RefQKV

noncomputable section

namespace Cert.RefBridge

open Cert.ReferenceIdeal Cert.ReferenceIdeal.Gen Cert.ReferenceIdeal.Read Cert.AttnSpec
open Idealize.ShloMosaic Idealize.ShloMosaic.ValueIdx

/-! ## The index maps of the broadcasts and of the sum, at coordinates -/

/-- The summed axis put back: feature k of (brick, head, position). -/
theorem idx13_eq (m : Fin 256) (h : Fin 16) (n : Fin 64) (k : Fin 72) :
    idx_main_v13 (ix3 m h n) k = ix4 m h n k :=
  funext fun a => Fin.ext (by match a with | ⟨0, _⟩ => rfl | ⟨1, _⟩ => rfl | ⟨2, _⟩ => rfl | ⟨3, _⟩ => rfl)

theorem idx26_eq (m : Fin 256) (h : Fin 16) (n : Fin 64) (k : Fin 72) :
    idx_main_v26 (ix3 m h n) k = ix4 m h n k :=
  funext fun a => Fin.ext (by match a with | ⟨0, _⟩ => rfl | ⟨1, _⟩ => rfl | ⟨2, _⟩ => rfl | ⟨3, _⟩ => rfl)

/-- A trailing axis of size one added. -/
theorem idx14_eq (m : Fin 256) (h : Fin 16) (n : Fin 64) :
    idx_main_v14 (ix4 m h n (0 : Fin 1)) = ix3 m h n :=
  funext fun a => Fin.ext (by match a with | ⟨0, _⟩ => rfl | ⟨1, _⟩ => rfl | ⟨2, _⟩ => rfl)

theorem idx27_eq (m : Fin 256) (h : Fin 16) (n : Fin 64) :
    idx_main_v27 (ix4 m h n (0 : Fin 1)) = ix3 m h n :=
  funext fun a => Fin.ext (by match a with | ⟨0, _⟩ => rfl | ⟨1, _⟩ => rfl | ⟨2, _⟩ => rfl)

/-- The per-position number repeated along the features. -/
theorem idx20_eq (m : Fin 256) (h : Fin 16) (n : Fin 64) (d : Fin 72) :
    idx_main_v20 (ix4 m h n d) = ix4 m h n (0 : Fin 1) :=
  funext fun a => Fin.ext (by match a with | ⟨0, _⟩ => rfl | ⟨1, _⟩ => rfl | ⟨2, _⟩ => rfl | ⟨3, _⟩ => rfl)

theorem idx33_eq (m : Fin 256) (h : Fin 16) (n : Fin 64) (d : Fin 72) :
    idx_main_v33 (ix4 m h n d) = ix4 m h n (0 : Fin 1) :=
  funext fun a => Fin.ext (by match a with | ⟨0, _⟩ => rfl | ⟨1, _⟩ => rfl | ⟨2, _⟩ => rfl | ⟨3, _⟩ => rfl)

/-- The per-feature weight repeated along bricks, heads and positions. -/
theorem idx22_eq (m : Fin 256) (h : Fin 16) (n : Fin 64) (d : Fin 72) :
    idx_main_v22 (idx_main_v23 (ix4 m h n d)) = ix1 d :=
  funext fun a => Fin.ext (by match a with | ⟨0, _⟩ => rfl)

theorem idx35_eq (m : Fin 256) (h : Fin 16) (n : Fin 64) (d : Fin 72) :
    idx_main_v35 (idx_main_v36 (ix4 m h n d)) = ix1 d :=
  funext fun a => Fin.ext (by match a with | ⟨0, _⟩ => rfl)

section

variable (x : (⟨S2x8x32x32x1152, .f32⟩ : BufTy).Contents (Elt Ideal))
variable (wqkv : (⟨S3456x1152, .f32⟩ : BufTy).Contents (Elt Ideal))
variable (qw kw : (⟨S72, .f32⟩ : BufTy).Contents (Elt Ideal))
variable (b : Fin 2) (n1 : Fin 2) (n2 n3 : Fin 8)

/-- The sum of the squares of a query's features. -/
theorem sumsq_q_apply (h : Fin 16) (n : Fin 64) :
    val_main_v13 (F := Ideal) x wqkv (ix3 (win b n1 n2 n3) h n)
      = ∑ d : Fin 72, part (tok x b n1 n2 n3) (fun o c => wqkv (ix2 o c)) 0 h n d
          * part (tok x b n1 n2 n3) (fun o c => wqkv (ix2 o c)) 0 h n d := by
  rw [val_main_v13_apply, val_main_cst_apply, Ideal.ofBits_def, Ideal.ofBits_zero_f32, zero_add]
  refine Finset.sum_congr rfl fun k _ => ?_
  rw [idx13_eq, val_main_v12_apply, Ideal.mulf_def, part_q_apply]

/-- The sum of the squares of a key's features. -/
theorem sumsq_k_apply (h : Fin 16) (n : Fin 64) :
    val_main_v26 (F := Ideal) x wqkv (ix3 (win b n1 n2 n3) h n)
      = ∑ d : Fin 72, part (tok x b n1 n2 n3) (fun o c => wqkv (ix2 o c)) 1 h n d
          * part (tok x b n1 n2 n3) (fun o c => wqkv (ix2 o c)) 1 h n d := by
  rw [val_main_v26_apply, val_main_cst_2_apply, Ideal.ofBits_def, Ideal.ofBits_zero_f32, zero_add]
  refine Finset.sum_congr rfl fun k _ => ?_
  rw [idx26_eq, val_main_v25_apply, Ideal.mulf_def, part_k_apply]

/-- The reciprocal root of a query's mean square plus the constant. -/
theorem rinv_q_apply (h : Fin 16) (n : Fin 64) :
    val_main_v19 (F := Ideal) x wqkv (ix4 (win b n1 n2 n3) h n (0 : Fin 1))
      = rinv (part (tok x b n1 n2 n3) (fun o c => wqkv (ix2 o c)) 0 h n) := by
  rw [val_main_v19_apply, Ideal.hostUnary_rsqrt_def, val_main_v18_apply, Ideal.addf_def, val_main_v16_apply,
    Ideal.hostDivf_def, val_main_v14_apply, idx14_eq, sumsq_q_apply, val_main_v15_apply, val_main_cst_0_apply,
    val_main_v17_apply, val_main_cst_1_apply]
  rfl

/-- The reciprocal root of a key's mean square plus the constant. -/
theorem rinv_k_apply (h : Fin 16) (n : Fin 64) :
    val_main_v32 (F := Ideal) x wqkv (ix4 (win b n1 n2 n3) h n (0 : Fin 1))
      = rinv (part (tok x b n1 n2 n3) (fun o c => wqkv (ix2 o c)) 1 h n) := by
  rw [val_main_v32_apply, Ideal.hostUnary_rsqrt_def, val_main_v31_apply, Ideal.addf_def, val_main_v29_apply,
    Ideal.hostDivf_def, val_main_v27_apply, idx27_eq, sumsq_k_apply, val_main_v28_apply, val_main_cst_3_apply,
    val_main_v30_apply, val_main_cst_4_apply]
  rfl

/-- The normalised, weighted and scaled queries. -/
theorem qn_apply (h : Fin 16) (n : Fin 64) (d : Fin 72) :
    val_main_v39 (F := Ideal) x wqkv qw (ix4 (win b n1 n2 n3) h n d)
      = qn (tok x b n1 n2 n3) (fun o c => wqkv (ix2 o c)) (fun d => qw (ix1 d)) h n d := by
  rw [val_main_v39_apply, Ideal.mulf_def, val_main_v24_apply, Ideal.mulf_def, val_main_v21_apply, Ideal.mulf_def,
    val_main_v23_apply, val_main_v22_apply, idx22_eq, val_main_v20_apply, idx20_eq, rinv_q_apply, part_q_apply,
    val_main_v38_apply, val_main_cst_5_apply, mul_comm (qw (ix1 d)) _]
  rfl

/-- The normalised and weighted keys. -/
theorem kn_apply (h : Fin 16) (n : Fin 64) (d : Fin 72) :
    val_main_v37 (F := Ideal) x wqkv kw (ix4 (win b n1 n2 n3) h n d)
      = kn (tok x b n1 n2 n3) (fun o c => wqkv (ix2 o c)) (fun d => kw (ix1 d)) h n d := by
  rw [val_main_v37_apply, Ideal.mulf_def, val_main_v34_apply, Ideal.mulf_def, val_main_v36_apply, val_main_v35_apply,
    idx35_eq, val_main_v33_apply, idx33_eq, rinv_k_apply, part_k_apply, mul_comm (kw (ix1 d)) _]
  rfl

end

end Cert.RefBridge

end
-- ==== Proof.RefSoftmax.lean ====
/- The scores, their softmax over the keys, and the weighted values of the reference program, at explicit coordinates.

   The row maximum is a fold of `max` over the 64 keys from minus infinity, compared once more with minus infinity; the
   specification writes it the same way, so nothing is evaluated. The sum of the exponentials starts from a zero
   initial value, which is dropped. -/
import proofs.«104549_j17987323036091_2_alg».proof.Proof.RefNorm

noncomputable section

namespace Cert.RefBridge

open Cert.ReferenceIdeal Cert.ReferenceIdeal.Gen Cert.ReferenceIdeal.Read Cert.AttnSpec
open Idealize.ShloMosaic Idealize.ShloMosaic.ValueIdx

/-! ## The index maps, at coordinates -/

/-- Query q against key k contracts the features: the query's feature d … -/
theorem lidx40_eq (m : Fin 256) (h : Fin 16) (q k : Fin 64) (d : Fin 72) :
    lidx_main_v40 (ix4 m h q k) d = ix4 m h q d :=
  funext fun a => Fin.ext (by match a with | ⟨0, _⟩ => rfl | ⟨1, _⟩ => rfl | ⟨2, _⟩ => rfl | ⟨3, _⟩ => rfl)

/-- … with the key's feature d. -/
theorem ridx40_eq (m : Fin 256) (h : Fin 16) (q k : Fin 64) (d : Fin 72) :
    ridx_main_v40 (ix4 m h q k) d = ix4 m h k d :=
  funext fun a => Fin.ext (by match a with | ⟨0, _⟩ => rfl | ⟨1, _⟩ => rfl | ⟨2, _⟩ => rfl | ⟨3, _⟩ => rfl)

/-- The per-query number (maximum, sum) repeated along the keys. -/
theorem idx44_eq (m : Fin 256) (h : Fin 16) (q k : Fin 64) :
    idx_main_v44 (idx_main_v45 (ix4 m h q k)) = ix3 m h q :=
  funext fun a => Fin.ext (by match a with | ⟨0, _⟩ => rfl | ⟨1, _⟩ => rfl | ⟨2, _⟩ => rfl)

theorem idx49_eq (m : Fin 256) (h : Fin 16) (q k : Fin 64) :
    idx_main_v49 (idx_main_v50 (ix4 m h q k)) = ix3 m h q :=
  funext fun a => Fin.ext (by match a with | ⟨0, _⟩ => rfl | ⟨1, _⟩ => rfl | ⟨2, _⟩ => rfl)

/-- The summed axis put back: key k of (brick, head, query). -/
theorem idx48_eq (m : Fin 256) (h : Fin 16) (q k : Fin 64) :
    idx_main_v48 (ix3 m h q) k = ix4 m h q k :=
  funext fun a => Fin.ext (by match a with | ⟨0, _⟩ => rfl | ⟨1, _⟩ => rfl | ⟨2, _⟩ => rfl | ⟨3, _⟩ => rfl)

/-- The weights of query n against key k … -/
theorem lidx52_eq (m : Fin 256) (h : Fin 16) (n : Fin 64) (d : Fin 72) (k : Fin 64) :
    lidx_main_v52 (ix4 m h n d) k = ix4 m h n k :=
  funext fun a => Fin.ext (by match a with | ⟨0, _⟩ => rfl | ⟨1, _⟩ => rfl | ⟨2, _⟩ => rfl | ⟨3, _⟩ => rfl)

/-- … times feature d of value k. -/
theorem ridx52_eq (m : Fin 256) (h : Fin 16) (n : Fin 64) (d : Fin 72) (k : Fin 64) :
    ridx_main_v52 (ix4 m h n d) k = ix4 m h k d :=
  funext fun a => Fin.ext (by match a with | ⟨0, _⟩ => rfl | ⟨1, _⟩ => rfl | ⟨2, _⟩ => rfl | ⟨3, _⟩ => rfl)

/-- The reduced index (brick, head, query) with key k put back on the last axis. -/
theorem lift_keys (hR : S256x16x64x64.Reduces [3] S256x16x64) (m : Fin 256) (h : Fin 16) (q : Fin 64)
    (k : Fin (S256x16x64x64.size 3)) : hR.lift (ix3 m h q) k = ix4 m h q (⟨k.val, k.isLt⟩ : Fin 64) := by
  funext c; apply Fin.ext
  fin_cases c <;> rfl

/-- A maximum-reduce over the keys, from minus infinity, read at (brick, head, query): the fold of `max` over the 64
    keys. -/
theorem rowmax_fold (y : FVec Ideal S256x16x64x64 .f32) (m : Fin 256) (h : Fin 16) (q : Fin 64) :
    Host.reduce FloatOps.maximumf y (val_main_cst_6 (F := Ideal)) reducesTo_S256x16x64x64_S256x16x64_d3 h_S_ (ix3 m h q)
      = Finset.univ.fold max (Ideal.ofBits FTy.f32 0xFF800000#32 : EReal) (fun k : Fin 64 => y (ix4 m h q k)) := by
  have hR : S256x16x64x64.Reduces [3] S256x16x64 := by decide
  refine (Host.reduce_eq_fold_single FloatOps.maximumf y _ reducesTo_S256x16x64x64_S256x16x64_d3 hR h_S_ (ix3 m h q)).trans ?_
  have hf : (y ∘ hR.lift (ix3 m h q)) = fun k : Fin 64 => y (ix4 m h q k) :=
    funext fun k => congrArg y (lift_keys hR m h q k)
  exact congrArg (fun f => Finset.fold max (Ideal.ofBits FTy.f32 0xFF800000#32 : EReal) f (Finset.univ : Finset (Fin 64))) hf

section

variable (x : (⟨S2x8x32x32x1152, .f32⟩ : BufTy).Contents (Elt Ideal))
variable (wqkv : (⟨S3456x1152, .f32⟩ : BufTy).Contents (Elt Ideal))
variable (qw kw : (⟨S72, .f32⟩ : BufTy).Contents (Elt Ideal))
variable (b : Fin 2) (n1 : Fin 2) (n2 n3 : Fin 8)

/-- The score of query q against key k. -/
theorem score_apply (h : Fin 16) (q k : Fin 64) :
    val_main_v40 (F := Ideal) x wqkv qw kw (ix4 (win b n1 n2 n3) h q k)
      = score (tok x b n1 n2 n3) (fun o c => wqkv (ix2 o c)) (fun d => qw (ix1 d)) (fun d => kw (ix1 d)) h q k := by
  rw [val_main_v40_apply]
  unfold score
  refine Finset.sum_congr rfl fun d _ => ?_
  rw [lidx40_eq, ridx40_eq, qn_apply, kn_apply]

/-- The largest score of query q. -/
theorem smax_apply (h : Fin 16) (q : Fin 64) :
    val_main_v43 (F := Ideal) x wqkv qw kw (ix3 (win b n1 n2 n3) h q)
      = smax (tok x b n1 n2 n3) (fun o c => wqkv (ix2 o c)) (fun d => qw (ix1 d)) (fun d => kw (ix1 d)) h q := by
  rw [val_main_v43_apply, Ideal.maximumf_def, val_main_v42_apply, val_main_cst_7_apply, Ideal.ofBits_def]
  unfold smax
  refine congrArg (max _) ?_
  have hy : ∀ k : Fin 64, val_main_v40 (F := Ideal) x wqkv qw kw (ix4 (win b n1 n2 n3) h q k)
      = score (tok x b n1 n2 n3) (fun o c => wqkv (ix2 o c)) (fun d => qw (ix1 d)) (fun d => kw (ix1 d)) h q k :=
    fun k => score_apply x wqkv qw kw b n1 n2 n3 h q k
  unfold val_main_v41
  generalize val_main_v40 (F := Ideal) x wqkv qw kw = y at hy ⊢
  refine (rowmax_fold y (win b n1 n2 n3) h q).trans ?_
  exact congrArg (fun f => Finset.fold max (Ideal.ofBits FTy.f32 0xFF800000#32 : EReal) f (Finset.univ : Finset (Fin 64)))
    (funext hy)

/-- The exponential of a score less the query's largest. -/
theorem ex_apply (h : Fin 16) (q k : Fin 64) :
    val_main_v47 (F := Ideal) x wqkv qw kw (ix4 (win b n1 n2 n3) h q k)
      = ex (tok x b n1 n2 n3) (fun o c => wqkv (ix2 o c)) (fun d => qw (ix1 d)) (fun d => kw (ix1 d)) h q k := by
  rw [val_main_v47_apply, Ideal.hostUnary_exp_def, val_main_v46_apply, Ideal.subf_def, val_main_v45_apply,
    val_main_v44_apply, idx44_eq, smax_apply, score_apply]
  rfl

/-- The sum of a query's exponentials. -/
theorem den_apply (h : Fin 16) (q : Fin 64) :
    val_main_v48 (F := Ideal) x wqkv qw kw (ix3 (win b n1 n2 n3) h q)
      = den (tok x b n1 n2 n3) (fun o c => wqkv (ix2 o c)) (fun d => qw (ix1 d)) (fun d => kw (ix1 d)) h q := by
  rw [val_main_v48_apply, val_main_cst_8_apply, Ideal.ofBits_def, Ideal.ofBits_zero_f32, zero_add]
  unfold den
  refine Finset.sum_congr rfl fun k _ => ?_
  rw [idx48_eq, ex_apply]

/-- The softmax weight of key k for query q. -/
theorem prob_apply (h : Fin 16) (q k : Fin 64) :
    val_main_v51 (F := Ideal) x wqkv qw kw (ix4 (win b n1 n2 n3) h q k)
      = prob (tok x b n1 n2 n3) (fun o c => wqkv (ix2 o c)) (fun d => qw (ix1 d)) (fun d => kw (ix1 d)) h q k := by
  rw [val_main_v51_apply, Ideal.hostDivf_def, val_main_v50_apply, val_main_v49_apply, idx49_eq, den_apply, ex_apply]
  rfl

/-- The values averaged with the softmax weights. -/
theorem att_apply (h : Fin 16) (n : Fin 64) (d : Fin 72) :
    val_main_v52 (F := Ideal) x wqkv qw kw (ix4 (win b n1 n2 n3) h n d)
      = att (tok x b n1 n2 n3) (fun o c => wqkv (ix2 o c)) (fun d => qw (ix1 d)) (fun d => kw (ix1 d)) h n d := by
  rw [val_main_v52_apply]
  unfold att
  refine Finset.sum_congr rfl fun k _ => ?_
  rw [lidx52_eq, ridx52_eq, prob_apply, part_v_apply]

end

end Cert.RefBridge

end
-- ==== Proof.RefIsSpec.lean ====
/- The reference program computes the specification.

   The heads are laid side by side (channel c is feature c % 72 of head c / 72), the bricks are put back in place, and
   the result is projected once more and a bias added. Read at (b, t, h, w, o), every stage of the reference is the
   specification's function of the brick containing (t, h, w), at the position of (t, h, w) inside it. -/
import proofs.«104549_j17987323036091_2_alg».proof.Proof.RefSoftmax

noncomputable section

namespace Cert.RefBridge

open Cert.ReferenceIdeal Cert.ReferenceIdeal.Gen Cert.ReferenceIdeal.Read Cert.AttnSpec
open Idealize.ShloMosaic Idealize.ShloMosaic.ValueIdx

/-! ## The index maps, at coordinates -/

/-- Channel c of position n is feature c % 72 of head c / 72, and heads come before positions in the operand. -/
theorem idx54_eq (m : Fin 256) (n : Fin 64) (c : Fin 1152) :
    idx_main_v53 (idx_main_v54 (ix3 m n c)) = ix4 m (headOf c) n (featOf c) := by
  have hm := m.isLt; have hn := n.isLt; have hc := c.isLt
  funext a; apply Fin.ext
  match a with
  | ⟨0, _⟩ =>
    show ((m.val * 64 + n.val) * 1152 + c.val) / 73728 = m.val
    omega
  | ⟨1, _⟩ =>
    show ((m.val * 64 + n.val) * 1152 + c.val) / 72 % 16 = c.val / 72
    omega
  | ⟨2, _⟩ =>
    show ((m.val * 64 + n.val) * 1152 + c.val) / 1152 % 64 = n.val
    omega
  | ⟨3, _⟩ =>
    show ((m.val * 64 + n.val) * 1152 + c.val) % 72 = c.val % 72
    omega

/-- The last projection contracts the channels: channel k of the position … -/
theorem lidx58_eq (b : Fin 2) (t : Fin 8) (h w : Fin 32) (o k : Fin 1152) :
    lidx_main_v58 (ix5 b t h w o) k = ix5 b t h w k :=
  funext fun a => Fin.ext (by
    match a with | ⟨0, _⟩ => rfl | ⟨1, _⟩ => rfl | ⟨2, _⟩ => rfl | ⟨3, _⟩ => rfl | ⟨4, _⟩ => rfl)

/-- … with the weight of output o and channel k. -/
theorem ridx58_eq (b : Fin 2) (t : Fin 8) (h w : Fin 32) (o k : Fin 1152) :
    ridx_main_v58 (ix5 b t h w o) k = ix2 o k :=
  funext fun a => Fin.ext (by match a with | ⟨0, _⟩ => rfl | ⟨1, _⟩ => rfl)

/-- The bias of output o repeated along every position. -/
theorem idx59_eq (b : Fin 2) (t : Fin 8) (h w : Fin 32) (o : Fin 1152) :
    idx_main_v59 (idx_main_v60 (ix5 b t h w o)) = ix1 o :=
  funext fun a => Fin.ext (by match a with | ⟨0, _⟩ => rfl)

section

variable (x : (⟨S2x8x32x32x1152, .f32⟩ : BufTy).Contents (Elt Ideal))
variable (wqkv : (⟨S3456x1152, .f32⟩ : BufTy).Contents (Elt Ideal))
variable (qw kw : (⟨S72, .f32⟩ : BufTy).Contents (Elt Ideal))
variable (wp : (⟨S1152x1152, .f32⟩ : BufTy).Contents (Elt Ideal))
variable (bp : (⟨S1152, .f32⟩ : BufTy).Contents (Elt Ideal))

/-- The heads side by side, per brick. -/
theorem heads_apply (b : Fin 2) (n1 : Fin 2) (n2 n3 : Fin 8) (n : Fin 64) (c : Fin 1152) :
    val_main_v54 (F := Ideal) x wqkv qw kw (ix3 (win b n1 n2 n3) n c)
      = heads (tok x b n1 n2 n3) (fun o c => wqkv (ix2 o c)) (fun d => qw (ix1 d)) (fun d => kw (ix1 d)) n c := by
  rw [val_main_v54_apply, val_main_v53_apply, idx54_eq, att_apply]
  rfl

/-- The reference's result at explicit coordinates is the specification's. -/
theorem ref_apply (b : Fin 2) (t : Fin 8) (h w : Fin 32) (o : Fin 1152) :
    val_main_v61 (F := Ideal) x wqkv qw kw wp bp (ix5 b t h w o) = Gc x wqkv qw kw wp bp b t h w o := by
  rw [val_main_v61_apply, Ideal.addf_def, val_main_v58_apply, val_main_v60_apply, val_main_v59_apply, idx59_eq]
  unfold Gc out
  refine congrArg (· + bp (ix1 o)) (Finset.sum_congr rfl fun k _ => ?_)
  rw [lidx58_eq, ridx58_eq, unwindow_apply, heads_apply]

/-- THE REFERENCE IS THE SPECIFICATION. -/
theorem ref_eq_spec :
    val_main_v61 (F := Ideal) x wqkv qw kw wp bp = G x wqkv qw kw wp bp := by
  funext i
  have hi : i = ix5 (i 0) (i 1) (i 2) (i 3) (i 4) :=
    eq_ix5 (n0 := 2) (n1 := 8) (n2 := 32) (n3 := 32) (n4 := 1152) i
  exact (congrArg (val_main_v61 (F := Ideal) x wqkv qw kw wp bp) hi).trans
    (ref_apply x wqkv qw kw wp bp (i 0) (i 1) (i 2) (i 3) (i 4))

end

end Cert.RefBridge

end
-- ==== Proof.lean ====
/- Windowed multi-head attention with RMS-normalised queries and keys, against its plain reference.

   Every 4x4x4 brick of the input (a WINDOW of 64 tokens) is projected to queries, keys and values; per head,
   queries and keys are scaled by the reciprocal root of their mean square (plus a small constant) and by a
   per-feature weight, the queries once more by a fixed constant; the softmax over the keys of the scores
   weights the values; the heads, laid side by side, are projected once more and shifted by a bias.
   `Cert.AttnSpec.G` states this once, index by index, on extended reals.

   The kernel computes four windows per grid point: one 256-row product for the first projection, the four
   windows' attention one after the other into a scratch, one 256-row product for the last projection. At the
   extended reals each block it writes back is the matching block of `G` (products accumulated into zero are
   plain sums; changes of float format are the identity), and the blocks tile the result.
   The reference computes all 256 windows at once through reshapes and transposes; read index by index it is
   `G` as well, the one algebraic step being that the weight multiplies from the other side (commutativity of
   the product). So from memories that agree on the arguments both programs end at `G` of the arguments.
   Neither side needs the inputs to be finite. The ledger of the idealisation is empty. -/
import proofs.«104549_j17987323036091_2_alg».proof.Defs
import proofs.«104549_j17987323036091_2_alg».proof.Proof.Gen.Kernel
import proofs.«104549_j17987323036091_2_alg».proof.Proof.Gen.Kernel.Frame
import proofs.«104549_j17987323036091_2_alg».proof.Proof.Gen.KernelIdeal
import proofs.«104549_j17987323036091_2_alg».proof.Proof.Gen.KernelIdeal.Frame
import proofs.«104549_j17987323036091_2_alg».proof.Proof.Gen.KernelIdeal.Value
import proofs.«104549_j17987323036091_2_alg».proof.Proof.Gen.ReferenceIdeal
import proofs.«104549_j17987323036091_2_alg».proof.Proof.Gen.ReferenceIdeal.Run
import proofs.«104549_j17987323036091_2_alg».proof.Proof.Gen.ReferenceIdeal.Read
import proofs.«104549_j17987323036091_2_alg».proof.Proof.Gen.Pre_finite_inputs
import proofs.«104549_j17987323036091_2_alg».proof.Proof.KArray
import proofs.«104549_j17987323036091_2_alg».proof.Proof.RefIsSpec
import Idealize.ShloMosaic.Adequacy
import Idealize.ShloMosaic.Init

noncomputable section

namespace Cert.Proof

open Idealize.ShloMosaic Idealize.ShloMosaic.TcCoe Idealize.SL.Sem

namespace AttnClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end at the specification of the arguments. -/
theorem algebraic : Cert.algebraic_KernelIdeal_ReferenceIdeal := by
  intro m ρ m' ρ' _ hagree
  refine ⟨fun c => Cert.KernelIdeal.Attn.Garr m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.RefBridge.ref_eq_spec,
    (hagree c).1, (hagree c).2.1, (hagree c).2.2.1, (hagree c).2.2.2.1, (hagree c).2.2.2.2.1, (hagree c).2.2.2.2.2]

end AttnClaims

theorem claim : Cert.Claim := ⟨Cert.Kernel.Gen.facts, Cert.KernelIdeal.Gen.facts, Cert.ReferenceIdeal.Gen.facts, Cert.Pre_finite_inputs.Gen.facts,
  AttnClaims.frame_k, AttnClaims.frame_ki, AttnClaims.frame_ri, trivial, AttnClaims.algebraic⟩

end Cert.Proof

end
